-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16 : Shape := ⟨1, ![16]⟩
abbrev S_ : Shape := ⟨0, ![]⟩

class Facts : Prop where
  bcast_S_S100000x16 : S_.BroadcastsInDim S100000x16 (![] : Fin 0 → Fin S100000x16.rank)
  reducesTo_S100000x16_S_d0_1 : S100000x16.ReducesTo [0, 1] S_
  h_S_ : 0 < S_.numel
  bcast_S_S16x32 : S_.BroadcastsInDim S16x32 (![] : Fin 0 → Fin S16x32.rank)
  reducesTo_S16x32_S_d0_1 : S16x32.ReducesTo [0, 1] S_
  bcast_S_S32 : S_.BroadcastsInDim S32 (![] : Fin 0 → Fin S32.rank)
  reducesTo_S32_S_d0 : S32.ReducesTo [0] S_
  bcast_S_S32x64 : S_.BroadcastsInDim S32x64 (![] : Fin 0 → Fin S32x64.rank)
  reducesTo_S32x64_S_d0_1 : S32x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_

variable [Facts]

def fn_part3 {F : FTy → Type} [FloatOps F] (main_v48 : IVec S_ 1) (main_v49 : FVec F S16 .f32) (main_v50 : FVec F S16 .f32) : IVec S_ 1 :=
  let main_v51 : IVec S16 1 := cmpf .olt main_v49 main_v50
  let main_c_19 : IVec S_ 1 := constantI S_ 1 1#1
  let main_v52 : IVec S_ 1 := (fun x v => Host.reduce IntOp.andi x v reducesTo_S16_S_d0 h_S_) main_v51 main_c_19
  let main_v53 : IVec S_ 1 := andi main_v48 main_v52
  main_v53

def fn_part2 {F : FTy → Type} [FloatOps F] (main_arg8 : FVec F S64x32 .f32) (main_arg9 : FVec F S32 .f32) (main_arg10 : FVec F S32x16 .f32) (main_arg11 : FVec F S16 .f32) (main_v33 : IVec S_ 1) : IVec S_ 1 :=
  let main_v34 : FVec F S64x32 .f32 := Host.absf main_arg8
  let main_cst_12 : FVec F S_ .f32 := constant S_ .f32 0x7F800000#32
  let main_v35 : FVec F S64x32 .f32 := broadcastInDim S64x32 ![] bcast_S_S64x32 main_cst_12
  let main_v36 : IVec S64x32 1 := cmpf .olt main_v34 main_v35
  let main_c_13 : IVec S_ 1 := constantI S_ 1 1#1
  let main_v37 : IVec S_ 1 := (fun x v => Host.reduce IntOp.andi x v reducesTo_S64x32_S_d0_1 h_S_) main_v36 main_c_13
  let main_v38 : IVec S_ 1 := andi main_v33 main_v37
  let main_v39 : FVec F S32 .f32 := Host.absf main_arg9
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x16 .f32 := Host.absf main_arg10
  let main_cst_16 : FVec F S_ .f32 := constant S_ .f32 0x7F800000#32
  let main_v45 : FVec F S32x16 .f32 := broadcastInDim S32x16 ![] bcast_S_S32x16 main_cst_16
  let main_v46 : IVec S32x16 1 := cmpf .olt main_v44 main_v45
  let main_c_17 : IVec S_ 1 := constantI S_ 1 1#1
  let main_v47 : IVec S_ 1 := (fun x v => Host.reduce IntOp.andi x v reducesTo_S32x16_S_d0_1 h_S_) main_v46 main_c_17
  let main_v48 : IVec S_ 1 := andi main_v43 main_v47
  let main_v49 : FVec F S16 .f32 := Host.absf main_arg11
  let main_cst_18 : FVec F S_ .f32 := constant S_ .f32 0x7F800000#32
  let main_v50 : FVec F S16 .f32 := broadcastInDim S16 ![] bcast_S_S16 main_cst_18
  fn_part3 (F := F) main_v48 main_v49 main_v50

def fn_part1 {F : FTy → Type} [FloatOps F] (main_arg5 : FVec F S32x64 .f32) (main_arg6 : FVec F S32x64 .f32) (main_arg7 : FVec F S64 .f32) (main_arg8 : FVec F S64x32 .f32) (main_arg9 : FVec F S32 .f32) (main_arg10 : FVec F S32x16 .f32) (main_arg11 : FVec F S16 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x64 .f32 := Host.absf main_arg5
  let main_cst_6 : FVec F S_ .f32 := constant S_ .f32 0x7F800000#32
  let main_v20 : FVec F S32x64 .f32 := broadcastInDim S32x64 ![] bcast_S_S32x64 main_cst_6
  let main_v21 : IVec S32x64 1 := cmpf .olt main_v19 main_v20
  let main_c_7 : IVec S_ 1 := constantI S_ 1 1#1
  let main_v22 : IVec S_ 1 := (fun x v => Host.reduce IntOp.andi x v reducesTo_S32x64_S_d0_1 h_S_) main_v21 main_c_7
  let main_v23 : IVec S_ 1 := andi main_v18 main_v22
  let main_v24 : FVec F S32x64 .f32 := Host.absf main_arg6
  let main_cst_8 : FVec F S_ .f32 := constant S_ .f32 0x7F800000#32
  let main_v25 : FVec F S32x64 .f32 := broadcastInDim S32x64 ![] bcast_S_S32x64 main_cst_8
  let main_v26 : IVec S32x64 1 := cmpf .olt main_v24 main_v25
  let main_c_9 : IVec S_ 1 := constantI S_ 1 1#1
  let main_v27 : IVec S_ 1 := (fun x v => Host.reduce IntOp.andi x v reducesTo_S32x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg8 main_arg9 main_arg10 main_arg11 main_v33

def fn {F : FTy → Type} [FloatOps F] (main_arg0 : FVec F S100000x16 .f32) (main_arg1 : IVec S2x1600000 32) (main_arg2 : FVec F S16x32 .f32) (main_arg3 : FVec F S16x32 .f32) (main_arg4 : FVec F S32 .f32) (main_arg5 : FVec F S32x64 .f32) (main_arg6 : FVec F S32x64 .f32) (main_arg7 : FVec F S64 .f32) (main_arg8 : FVec F S64x32 .f32) (main_arg9 : FVec F S32 .f32) (main_arg10 : FVec F S32x16 .f32) (main_arg11 : FVec F S16 .f32) : IVec S_ 1 :=
  let main_v0 : FVec F S100000x16 .f32 := Host.absf main_arg0
  let main_cst : FVec F S_ .f32 := constant S_ .f32 0x7F800000#32
  let main_v1 : FVec F S100000x16 .f32 := broadcastInDim S100000x16 ![] bcast_S_S100000x16 main_cst
  let main_v2 : IVec S100000x16 1 := cmpf .olt main_v0 main_v1
  let main_c : IVec S_ 1 := constantI S_ 1 1#1
  let main_v3 : IVec S_ 1 := (fun x v => Host.reduce IntOp.andi x v reducesTo_S100000x16_S_d0_1 h_S_) main_v2 main_c
  let main_v4 : FVec F S16x32 .f32 := Host.absf main_arg2
  let main_cst_0 : FVec F S_ .f32 := constant S_ .f32 0x7F800000#32
  let main_v5 : FVec F S16x32 .f32 := broadcastInDim S16x32 ![] bcast_S_S16x32 main_cst_0
  let main_v6 : IVec S16x32 1 := cmpf .olt main_v4 main_v5
  let main_c_1 : IVec S_ 1 := constantI S_ 1 1#1
  let main_v7 : IVec S_ 1 := (fun x v => Host.reduce IntOp.andi x v reducesTo_S16x32_S_d0_1 h_S_) main_v6 main_c_1
  let main_v8 : IVec S_ 1 := andi main_v3 main_v7
  let main_v9 : FVec F S16x32 .f32 := Host.absf main_arg3
  let main_cst_2 : FVec F S_ .f32 := constant S_ .f32 0x7F800000#32
  let main_v10 : FVec F S16x32 .f32 := broadcastInDim S16x32 ![] bcast_S_S16x32 main_cst_2
  let main_v11 : IVec S16x32 1 := cmpf .olt main_v9 main_v10
  let main_c_3 : IVec S_ 1 := constantI S_ 1 1#1
  let main_v12 : IVec S_ 1 := (fun x v => Host.reduce IntOp.andi x v reducesTo_S16x32_S_d0_1 h_S_) main_v11 main_c_3
  let main_v13 : IVec S_ 1 := andi main_v8 main_v12
  let main_v14 : FVec F S32 .f32 := Host.absf main_arg4
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg5 main_arg6 main_arg7 main_arg8 main_arg9 main_arg10 main_arg11 main_v13 main_v16
-- ==== Kernel.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S1x32 : Shape := ⟨2, ![1, 32]⟩
abbrev S100000x32 : Shape := ⟨2, ![100000, 32]⟩
abbrev S10000x16 : Shape := ⟨2, ![10000, 16]⟩
abbrev S10000x32 : Shape := ⟨2, ![10000, 32]⟩
abbrev S1600000x32 : Shape := ⟨2, ![1600000, 32]⟩
abbrev S1x64 : Shape := ⟨2, ![1, 64]⟩
abbrev S1x16 : Shape := ⟨2, ![1, 16]⟩
abbrev S10000x64 : Shape := ⟨2, ![10000, 64]⟩

abbrev nBuf : Space → Nat
  | .hbm => 48
  | .vmem => 22
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S16x32, .f32⟩
  | .hbm, ⟨4, _⟩ => ⟨S32, .f32⟩
  | .hbm, ⟨5, _⟩ => ⟨S32x64, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x16, .f32⟩
  | .hbm, ⟨25, _⟩ => ⟨S_, .f32⟩
  | .hbm, ⟨26, _⟩ => ⟨S100000x16, .f32⟩
  | .hbm, ⟨27, _⟩ => ⟨S1600000x1, .i32⟩
  | .hbm, ⟨28, _⟩ => ⟨S100000x16, .f32⟩
  | .hbm, ⟨29, _⟩ => ⟨S1x32, .f32⟩
  | .hbm, ⟨30, _⟩ => ⟨S100000x32, .f32⟩
  | .hbm, ⟨31, _⟩ => ⟨S_, .i32⟩
  | .hbm, ⟨32, _⟩ => ⟨S1600000, .i32⟩
  | .hbm, ⟨33, _⟩ => ⟨S1600000, .i1⟩
  | .hbm, ⟨34, _⟩ => ⟨S_, .i32⟩
  | .hbm, ⟨35, _⟩ => ⟨S1600000, .i32⟩
  | .hbm, ⟨36, _⟩ => ⟨S1600000, .i32⟩
  | .hbm, ⟨37, _⟩ => ⟨S1600000, .i32⟩
  | .hbm, ⟨38, _⟩ => ⟨S1600000x1, .i32⟩
  | .hbm, ⟨39, _⟩ => ⟨S1600000x32, .f32⟩
  | .hbm, ⟨40, _⟩ => ⟨S_, .f32⟩
  | .hbm, ⟨41, _⟩ => ⟨S100000x32, .f32⟩
  | .hbm, ⟨42, _⟩ => ⟨S1600000x1, .i32⟩
  | .hbm, ⟨43, _⟩ => ⟨S100000x32, .f32⟩
  | .hbm, ⟨44, _⟩ => ⟨S1x64, .f32⟩
  | .hbm, ⟨45, _⟩ => ⟨S1x32, .f32⟩
  | .hbm, ⟨46, _⟩ => ⟨S1x16, .f32⟩
  | .hbm, ⟨47, _⟩ => ⟨S100000x16, .f32⟩
  | .local _ .vmem, ⟨0, _⟩ => ⟨S10000x16, .f32⟩
  | .local _ .vmem, ⟨1, _⟩ => ⟨S10000x16, .f32⟩
  | .local _ .vmem, ⟨2, _⟩ => ⟨S10000x16, .f32⟩
  | .local _ .vmem, ⟨3, _⟩ => ⟨S10000x16, .f32⟩
  | .local _ .vmem, ⟨4, _⟩ => ⟨S16x32, .f32⟩
  | .local _ .vmem, ⟨5, _⟩ => ⟨S16x32, .f32⟩
  | .local _ .vmem, ⟨6, _⟩ => ⟨S1x32, .f32⟩
  | .local _ .vmem, ⟨7, _⟩ => ⟨S10000x32, .f32⟩
  | .local _ .vmem, ⟨8, _⟩ => ⟨S10000x32, .f32⟩
  | .local _ .vmem, ⟨9, _⟩ => ⟨S10000x32, .f32⟩
  | .local _ .vmem, ⟨10, _⟩ => ⟨S10000x32, .f32⟩
  | .local _ .vmem, ⟨11, _⟩ => ⟨S10000x32, .f32⟩
  | .local _ .vmem, ⟨12, _⟩ => ⟨S10000x32, .f32⟩
  | .local _ .vmem, ⟨13, _⟩ => ⟨S32x64, .f32⟩
  | .local _ .vmem, ⟨14, _⟩ => ⟨S32x64, .f32⟩
  | .local _ .vmem, ⟨15, _⟩ => ⟨S1x64, .f32⟩
  | .local _ .vmem, ⟨16, _⟩ => ⟨S64x32, .f32⟩
  | .local _ .vmem, ⟨17, _⟩ => ⟨S1x32, .f32⟩
  | .local _ .vmem, ⟨18, _⟩ => ⟨S32x16, .f32⟩
  | .local _ .vmem, ⟨19, _⟩ => ⟨S1x16, .f32⟩
  | .local _ .vmem, ⟨20, _⟩ => ⟨S10000x16, .f32⟩
  | .local _ .vmem, ⟨21, _⟩ => ⟨S10000x16, .f32⟩
  | _, _ => ⟨S100000x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_3 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg6_0 : Ref sig .tc := ⟨.vmem, 17, rfl⟩
abbrev cc1_stg7_0 : Ref sig .tc := ⟨.vmem, 18, rfl⟩
abbrev cc1_stg8_0 : Ref sig .tc := ⟨.vmem, 19, rfl⟩
abbrev cc1_stg9_0 : Ref sig .tc := ⟨.vmem, 20, rfl⟩
abbrev cc1_stg9_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem6_0 : DmaSem sig := 17
abbrev cc1_sem7_0 : DmaSem sig := 18
abbrev cc1_sem8_0 : DmaSem sig := 19
abbrev cc1_sem9_0 : DmaSem sig := 20
abbrev cc1_sem9_1 : DmaSem sig := 21

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S10000x32 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S32x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S64x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x16 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x16 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 2 → Memref sig .tc .vmem S10000x16 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  shapeCasts_S32_S1x32 : S32.ShapeCasts S1x32
  inb_S10000x16_S10000x16_0_0 : ∀ a, (![0, 0] : Fin 2 → Nat) a + S10000x16.size a ≤ S10000x16.size a
  h_S10000x16 : 0 < S10000x16.numel
  shapeCasts_S10000x16_S10000x16 : S10000x16.ShapeCasts S10000x16
  inb_S16x32_S16x32_0_0 : ∀ a, (![0, 0] : Fin 2 → Nat) a + S16x32.size a ≤ S16x32.size a
  h_S16x32 : 0 < S16x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S64_S1x64 : S64.ShapeCasts S1x64
  shapeCasts_S16_S1x16 : S16.ShapeCasts S1x16
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S32x16_S32x16_0_0 : ∀ a, (![0, 0] : Fin 2 → Nat) a + S32x16.size a ≤ S32x16.size a
  h_S32x16 : 0 < S32x16.numel
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S10000x16 : S1x16.Broadcasts S10000x16
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S10000x16_S16x32_S10000x32_1_0_0_1_n_n_wf : DotDims.WF S10000x16 S16x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S10000x32_S32x64_S10000x64_1_0_0_1_n_n_wf : DotDims.WF S10000x32 S32x64 S10000x64 [1] [0] [0] [1] [] []
  dot_S10000x64_S64x32_S10000x32_1_0_0_1_n_n_wf : DotDims.WF S10000x64 S64x32 S10000x32 [1] [0] [0] [1] [] []
  dot_S10000x32_S32x16_S10000x16_1_0_0_1_n_n_wf : DotDims.WF S10000x32 S32x16 S10000x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x16.size a ≤ S100000x16.size a
  hwx0_0 : ∀ i : grid0.Coords, EltTy.bits .f32 = 32 ∨ (Rect.block (s := S100000x16) S10000x16.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x16.size a ≤ S100000x16.size a
  hwx0_1 : ∀ i : grid0.Coords, EltTy.bits .f32 = 32 ∨ (Rect.block (s := S100000x16) S10000x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S16x32.size a ≤ S16x32.size a
  hwx0_2 : ∀ i : grid0.Coords, EltTy.bits .f32 = 32 ∨ (Rect.block (s := S16x32) S16x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S16x32.size a ≤ S16x32.size a
  hwx0_3 : ∀ i : grid0.Coords, EltTy.bits .f32 = 32 ∨ (Rect.block (s := S16x32) S16x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S10000x32.size a ≤ S100000x32.size a
  hwx0_5 : ∀ i : grid0.Coords, EltTy.bits .f32 = 32 ∨ (Rect.block (s := S100000x32) S10000x32.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x64.size a ≤ S32x64.size a
  hwx1_2 : ∀ i : grid1.Coords, EltTy.bits .f32 = 32 ∨ (Rect.block (s := S32x64) S32x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S32x64.size a ≤ S32x64.size a
  hwx1_3 : ∀ i : grid1.Coords, EltTy.bits .f32 = 32 ∨ (Rect.block (s := S32x64) S32x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S64x32.size a ≤ S64x32.size a
  hwx1_5 : ∀ i : grid1.Coords, EltTy.bits .f32 = 32 ∨ (Rect.block (s := S64x32) S64x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x16.size a ≤ S32x16.size a
  hwx1_7 : ∀ i : grid1.Coords, EltTy.bits .f32 = 32 ∨ (Rect.block (s := S32x16) S32x16.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x16.size a ≤ S1x16.size a
  hwx1_8 : ∀ i : grid1.Coords, EltTy.bits .f32 = 32 ∨ (Rect.block (s := S1x16) S1x16.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S10000x16.size a ≤ S100000x16.size a
  hwx1_9 : ∀ i : grid1.Coords, EltTy.bits .f32 = 32 ∨ (Rect.block (s := S100000x16) S10000x16.size (cc1_transform_9 i) (hinb1_9 i)).WholeWords (EltTy.packing .f32)

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S10000x16_S16x32_S10000x32_1_0_0_1_n_n : DotDims S10000x16 S16x32 S10000x32 where
  lhsContracting := [1]
  rhsContracting := [0]
  lhsNonContracting := [0]
  rhsNonContracting := [1]
  lhsBatch := []
  rhsBatch := []
  wf := dot_S10000x16_S16x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x16_S10000x16_1_0_0_1_n_n : DotDims S10000x32 S32x16 S10000x16 where
  lhsContracting := [1]
  rhsContracting := [0]
  lhsNonContracting := [0]
  rhsNonContracting := [1]
  lhsBatch := []
  rhsBatch := []
  wf := dot_S10000x32_S32x16_S10000x16_1_0_0_1_n_n_wf

abbrev win0_0 : Pipeline.Window sig grid0 :=
  Pipeline.Window.ofSpec (Memref.whole main_v13) S10000x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S10000x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v14) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S10000x32.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v25) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S32x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S32x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg8) S64x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v27) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg10) S32x16.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v28) S1x16.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v29) S10000x16.size cc1_transform_9 reads1_9 true false 2 stage1_9 sem1_9
    hrank1 hreads1_9 hinb1_9 nbuf1_9 (Memref.isWhole_whole _) hwx1_9 hstage1_9

abbrev win1 : Fin 10 → Pipeline.Window sig grid1 := fun | 0 => win1_0 | 1 => win1_1 | 2 => win1_2 | 3 => win1_3 | 4 => win1_4 | 5 => win1_5 | 6 => win1_6 | 7 => win1_7 | 8 => win1_8 | 9 => win1_9 | ⟨_ + 10, h⟩ => absurd h (Nat.not_lt.2 (Nat.le_add_left _ _))
abbrev spec1 : Fin 10 → Pipeline.WinSpec sig grid1.rank := fun w => (win1 w).toWinSpec

class Facts : Prop extends Facts₀ where

variable [Facts]
-- ==== ReferenceIdeal.lean ====
abbrev S100000x16 : Shape := ⟨2, ![100000, 16]⟩
abbrev S2x1600000 : Shape := ⟨2, ![2, 1600000]⟩
abbrev S16x32 : Shape := ⟨2, ![16, 32]⟩
abbrev S32 : Shape := ⟨1, ![32]⟩
abbrev S32x64 : Shape := ⟨2, ![32, 64]⟩
abbrev S64 : Shape := ⟨1, ![64]⟩
abbrev S64x32 : Shape := ⟨2, ![64, 32]⟩
abbrev S32x16 : Shape := ⟨2, ![32, 16]⟩
abbrev S16 : Shape := ⟨1, ![16]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x16 : Shape := ⟨2, ![1600000, 16]⟩
abbrev S100000x32 : Shape := ⟨2, ![100000, 32]⟩
abbrev S1x32 : Shape := ⟨2, ![1, 32]⟩
abbrev S1600000x32 : Shape := ⟨2, ![1600000, 32]⟩
abbrev S100000x64 : Shape := ⟨2, ![100000, 64]⟩
abbrev S1x64 : Shape := ⟨2, ![1, 64]⟩
abbrev S1x16 : Shape := ⟨2, ![1, 16]⟩

abbrev nBuf : Space → Nat
  | .hbm => 75
  | .vmem => 0
  | .smem => 0
  | _ => 0

abbrev bufTy : (tb : Table) → Fin (tcTables nBuf tb) → BufTy
  | .hbm, ⟨0, _⟩ => ⟨S100000x16, .f32⟩
  | .hbm, ⟨1, _⟩ => ⟨S2x1600000, .i32⟩
  | .hbm, ⟨2, _⟩ => ⟨S16x32, .f32⟩
  | .hbm, ⟨3, _⟩ => ⟨S16x32, .f32⟩
  | .hbm, ⟨4, _⟩ => ⟨S32, .f32⟩
  | .hbm, ⟨5, _⟩ => ⟨S32x64, .f32⟩
  | .hbm, ⟨6, _⟩ => ⟨S32x64, .f32⟩
  | .hbm, ⟨7, _⟩ => ⟨S64, .f32⟩
  | .hbm, ⟨8, _⟩ => ⟨S64x32, .f32⟩
  | .hbm, ⟨9, _⟩ => ⟨S32, .f32⟩
  | .hbm, ⟨10, _⟩ => ⟨S32x16, .f32⟩
  | .hbm, ⟨11, _⟩ => ⟨S16, .f32⟩
  | .hbm, ⟨12, _⟩ => ⟨S1x1600000, .i32⟩
  | .hbm, ⟨13, _⟩ => ⟨S1600000, .i32⟩
  | .hbm, ⟨14, _⟩ => ⟨S1x1600000, .i32⟩
  | .hbm, ⟨15, _⟩ => ⟨S1600000, .i32⟩
  | .hbm, ⟨16, _⟩ => ⟨S_, .i32⟩
  | .hbm, ⟨17, _⟩ => ⟨S1600000, .i32⟩
  | .hbm, ⟨18, _⟩ => ⟨S1600000, .i1⟩
  | .hbm, ⟨19, _⟩ => ⟨S_, .i32⟩
  | .hbm, ⟨20, _⟩ => ⟨S1600000, .i32⟩
  | .hbm, ⟨21, _⟩ => ⟨S1600000, .i32⟩
  | .hbm, ⟨22, _⟩ => ⟨S1600000, .i32⟩
  | .hbm, ⟨23, _⟩ => ⟨S1600000x1, .i32⟩
  | .hbm, ⟨24, _⟩ => ⟨S1600000x16, .f32⟩
  | .hbm, ⟨25, _⟩ => ⟨S_, .f32⟩
  | .hbm, ⟨26, _⟩ => ⟨S100000x16, .f32⟩
  | .hbm, ⟨27, _⟩ => ⟨S1600000x1, .i32⟩
  | .hbm, ⟨28, _⟩ => ⟨S100000x16, .f32⟩
  | .hbm, ⟨29, _⟩ => ⟨S100000x32, .f32⟩
  | .hbm, ⟨30, _⟩ => ⟨S1x32, .f32⟩
  | .hbm, ⟨31, _⟩ => ⟨S100000x32, .f32⟩
  | .hbm, ⟨32, _⟩ => ⟨S100000x32, .f32⟩
  | .hbm, ⟨33, _⟩ => ⟨S100000x32, .f32⟩
  | .hbm, ⟨34, _⟩ => ⟨S100000x32, .f32⟩
  | .hbm, ⟨35, _⟩ => ⟨S_, .f32⟩
  | .hbm, ⟨36, _⟩ => ⟨S100000x32, .f32⟩
  | .hbm, ⟨37, _⟩ => ⟨S100000x32, .f32⟩
  | .hbm, ⟨38, _⟩ => ⟨S1x1600000, .i32⟩
  | .hbm, ⟨39, _⟩ => ⟨S1600000, .i32⟩
  | .hbm, ⟨40, _⟩ => ⟨S1x1600000, .i32⟩
  | .hbm, ⟨41, _⟩ => ⟨S1600000, .i32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x32, .f32⟩
  | .hbm, ⟨51, _⟩ => ⟨S_, .f32⟩
  | .hbm, ⟨52, _⟩ => ⟨S100000x32, .f32⟩
  | .hbm, ⟨53, _⟩ => ⟨S1600000x1, .i32⟩
  | .hbm, ⟨54, _⟩ => ⟨S100000x32, .f32⟩
  | .hbm, ⟨55, _⟩ => ⟨S100000x64, .f32⟩
  | .hbm, ⟨56, _⟩ => ⟨S1x64, .f32⟩
  | .hbm, ⟨57, _⟩ => ⟨S100000x64, .f32⟩
  | .hbm, ⟨58, _⟩ => ⟨S100000x64, .f32⟩
  | .hbm, ⟨59, _⟩ => ⟨S100000x64, .f32⟩
  | .hbm, ⟨60, _⟩ => ⟨S100000x64, .f32⟩
  | .hbm, ⟨61, _⟩ => ⟨S_, .f32⟩
  | .hbm, ⟨62, _⟩ => ⟨S100000x64, .f32⟩
  | .hbm, ⟨63, _⟩ => ⟨S100000x64, .f32⟩
  | .hbm, ⟨64, _⟩ => ⟨S100000x32, .f32⟩
  | .hbm, ⟨65, _⟩ => ⟨S1x32, .f32⟩
  | .hbm, ⟨66, _⟩ => ⟨S100000x32, .f32⟩
  | .hbm, ⟨67, _⟩ => ⟨S100000x32, .f32⟩
  | .hbm, ⟨68, _⟩ => ⟨S_, .f32⟩
  | .hbm, ⟨69, _⟩ => ⟨S100000x32, .f32⟩
  | .hbm, ⟨70, _⟩ => ⟨S100000x32, .f32⟩
  | .hbm, ⟨71, _⟩ => ⟨S100000x16, .f32⟩
  | .hbm, ⟨72, _⟩ => ⟨S1x16, .f32⟩
  | .hbm, ⟨73, _⟩ => ⟨S100000x16, .f32⟩
  | .hbm, ⟨74, _⟩ => ⟨S100000x16, .f32⟩
  | _, _ => ⟨S100000x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_c_0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_call0_cst : Ref sig .tc := ⟨.hbm, 35, rfl⟩
abbrev main_call0_v0 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_1 : Ref sig .tc := ⟨.hbm, 42, rfl⟩
abbrev main_v25 : Ref sig .tc := ⟨.hbm, 43, rfl⟩
abbrev main_v26 : Ref sig .tc := ⟨.hbm, 44, rfl⟩
abbrev main_c_2 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_3 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_call1_cst : Ref sig .tc := ⟨.hbm, 61, rfl⟩
abbrev main_call1_v0 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_call2_cst : Ref sig .tc := ⟨.hbm, 68, rfl⟩
abbrev main_call2_v0 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x16 : S_.BroadcastsInDim S100000x16 (![] : Fin 0 → Fin S100000x16.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S100000x64 : S_.BroadcastsInDim S100000x64 (![] : Fin 0 → Fin S100000x64.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  gather_S100000x16_S1600000x1_S1600000x16_1_0_n_n_0_1_116_wf : GatherDims.WF S100000x16 S1600000x1 S1600000x16 [1] [0] [] [0] [] 1 ![1, 16]
  scatter_S100000x16_S1600000x1_S1600000x16_1_0_0_1_wf : ScatterDims.WF S100000x16 S1600000x1 S1600000x16 [1] [0] [0] 1
  dot_S100000x16_S16x32_S100000x32_1_0_0_1_n_n_wf : DotDims.WF S100000x16 S16x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  dot_S100000x32_S32x64_S100000x64_1_0_0_1_n_n_wf : DotDims.WF S100000x32 S32x64 S100000x64 [1] [0] [0] [1] [] []
  dot_S100000x64_S64x32_S100000x32_1_0_0_1_n_n_wf : DotDims.WF S100000x64 S64x32 S100000x32 [1] [0] [0] [1] [] []
  dot_S100000x32_S32x16_S100000x16_1_0_0_1_n_n_wf : DotDims.WF S100000x32 S32x16 S100000x16 [1] [0] [0] [1] [] []

variable [Facts₀]

def gather_S100000x16_S1600000x1_S1600000x16_1_0_n_n_0_1_116 : GatherDims S100000x16 S1600000x1 S1600000x16 where
  offsetDims := [1]
  collapsedSliceDims := [0]
  operandBatchingDims := []
  startIndicesBatchingDims := []
  startIndexMap := [0]
  indexVectorDim := 1
  sliceSizes := ![1, 16]
  wf := gather_S100000x16_S1600000x1_S1600000x16_1_0_n_n_0_1_116_wf
def scatter_S100000x16_S1600000x1_S1600000x16_1_0_0_1 : ScatterDims S100000x16 S1600000x1 S1600000x16 where
  updateWindowDims := [1]
  insertedWindowDims := [0]
  scatterDimsToOperandDims := [0]
  indexVectorDim := 1
  wf := scatter_S100000x16_S1600000x1_S1600000x16_1_0_0_1_wf
def dot_S100000x16_S16x32_S100000x32_1_0_0_1_n_n : DotDims S100000x16 S16x32 S100000x32 where
  lhsContracting := [1]
  rhsContracting := [0]
  lhsNonContracting := [0]
  rhsNonContracting := [1]
  lhsBatch := []
  rhsBatch := []
  wf := dot_S100000x16_S16x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def dot_S100000x32_S32x64_S100000x64_1_0_0_1_n_n : DotDims S100000x32 S32x64 S100000x64 where
  lhsContracting := [1]
  rhsContracting := [0]
  lhsNonContracting := [0]
  rhsNonContracting := [1]
  lhsBatch := []
  rhsBatch := []
  wf := dot_S100000x32_S32x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x16_S100000x16_1_0_0_1_n_n : DotDims S100000x32 S32x16 S100000x16 where
  lhsContracting := [1]
  rhsContracting := [0]
  lhsNonContracting := [0]
  rhsNonContracting := [1]
  lhsBatch := []
  rhsBatch := []
  wf := dot_S100000x32_S32x16_S100000x16_1_0_0_1_n_n_wf

class Facts : Prop extends Facts₀ where

variable [Facts]
-- ==== Proof.KernelRun.lean ====
/-
  The idealized kernel's run with its result named.

  @main is four segments: host operations, the first layer's region, host operations, the second region. The buffer
  contents at each boundary are a fold from the launch memory: W1 after the first stretch, W2 with the first region's
  arrays at what its write-backs leave, W3 after the second stretch, W4 with the second region's arrays at what its
  write-backs leave. Every weakly fair execution terminates, nothing faults, every unscoped buffer ends at W4, so the
  result buffer ends at W4's contents there and each argument as launched.
-/
import proofs.«105941_j71296457114107_1_alg».proof.Proof.Gen.KernelIdeal.Frame

set_option maxRecDepth 16384

noncomputable section

namespace Cert.KernelIdeal.ResultRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting; the result buffer ends at the last boundary's
    contents W4 and every argument array as launched. -/
theorem run_result : θ_run defs (onTc (τ := τ) (main (F := F))) ⟨m, fun _ => 0, ρ⟩ (fun r => ∀ c : Dev nD,
      r.2.mem ((c.tc : Thread nD τ).loc main_v29) = W4 m ρ c (Proc.devRef .tc main_v29)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v29 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c)⟩)

end Cert.KernelIdeal.ResultRun

end
-- ==== Proof.LibRowOps.lean ====
/-
  Row-wise operations on matrices of extended reals, generic in the sizes, each with the forms it takes in a program:
  on the host (broadcast_in_dim, dot_general) and inside a vector unit's body (shape casts, vector.broadcast, the matrix
  unit's product into a zero accumulator).

    reluRow a b     entry (r, c) is max (a(r, c) + b(0, c)) 0
    scaleRows g n   entry (r, c) is g(r, c) · n(r, 0):        every row of g scaled by that row's entry of the column n
    addRow a b      entry (r, c) is a(r, c) + b(0, c):        the row b added to every row of a
    matProd x w     entry (r, c) is ∑ k, x(r, k) · w(k, c):   the matrix product

  A column [A] cast to [A, 1] is the same array as that column broadcast along a new unit axis (colCast_eq_bcast), and
  likewise a row [B] cast to [1, B] (rowCast_eq_bcast).
-/
import Idealize.ShloMosaic.Lib.Pipeline.Value
import Idealize.ShloMosaic.Lib.ValueIdx
import Idealize.ShloMosaic.Lib.ValueLayout
import Idealize.ShloMosaic.PureOps.Ideal.Laws

noncomputable section

namespace Cert.RowOps

open Idealize.ShloMosaic Idealize.ShloMosaic.ValueIdx

/-- The entry of column 0 in the row of `i`. -/
abbrev col0 {A B : ℕ} (i : (⟨2, ![A, B]⟩ : Shape).Idx) : (⟨2, ![A, 1]⟩ : Shape).Idx :=
  ix2 (⟨(i 0).val, idx2_lt0 i⟩ : Fin A) (0 : Fin 1)

/-- The entry of row 0 in the column of `i`. -/
abbrev row0 {A B : ℕ} (i : (⟨2, ![A, B]⟩ : Shape).Idx) : (⟨2, ![1, B]⟩ : Shape).Idx :=
  ix2 (0 : Fin 1) (⟨(i 1).val, idx2_lt1 i⟩ : Fin B)

/-- Every row of `g` scaled by that row's entry of the column `n`. -/
def scaleRows {A B : ℕ} (g : (⟨2, ![A, B]⟩ : Shape).Idx → EReal) (n : (⟨2, ![A, 1]⟩ : Shape).Idx → EReal) :
    (⟨2, ![A, B]⟩ : Shape).Idx → EReal := fun i => g i * n (col0 i)

/-- The row `b` added to every row of `a`. -/
def addRow {A B : ℕ} (a : (⟨2, ![A, B]⟩ : Shape).Idx → EReal) (b : (⟨2, ![1, B]⟩ : Shape).Idx → EReal) :
    (⟨2, ![A, B]⟩ : Shape).Idx → EReal := fun i => a i + b (row0 i)

/-- The row `b` added to every row of `a`, then every entry cut off below at zero. -/
def reluRow {A B : ℕ} (a : (⟨2, ![A, B]⟩ : Shape).Idx → EReal) (b : (⟨2, ![1, B]⟩ : Shape).Idx → EReal) :
    (⟨2, ![A, B]⟩ : Shape).Idx → EReal := fun i => max (addRow a b i) (Ideal.ofBits .f32 0x00000000#32)

/-- The matrix product. -/
def matProd {A K B : ℕ} (x : (⟨2, ![A, K]⟩ : Shape).Idx → EReal) (w : (⟨2, ![K, B]⟩ : Shape).Idx → EReal) :
    (⟨2, ![A, B]⟩ : Shape).Idx → EReal :=
  fun i => ∑ k : Fin K, x (ix2 (⟨(i 0).val, idx2_lt0 i⟩ : Fin A) k) * w (ix2 k (⟨(i 1).val, idx2_lt1 i⟩ : Fin B))

/-! ## On the host -/

/-- A column [A, 1] broadcast to [A, B] along its unit axis reads, at `i`, the column's entry in the row of `i`. -/
theorem bcastCol_apply {A B : ℕ} (h : (⟨2, ![A, 1]⟩ : Shape).BroadcastsInDim ⟨2, ![A, B]⟩ ![0, 1])
    (n : (⟨2, ![A, 1]⟩ : Shape).Idx → EReal) (i : (⟨2, ![A, B]⟩ : Shape).Idx) :
    broadcastInDim ⟨2, ![A, B]⟩ ![0, 1] h n i = n (col0 i) :=
  broadcastInDim_apply _ h n i (col0 i) (fun a => match a with
    | ⟨0, _⟩ => by
      show (i 0).val = if A = 1 then 0 else (i 0).val
      split
      · have := idx2_lt0 i; omega
      · rfl
    | ⟨1, _⟩ => by show 0 = if (1 : ℕ) = 1 then 0 else (i 1).val; rw [if_pos rfl])

/-- The host's product of `g` with the column `n` broadcast over the columns is `scaleRows g n`. -/
theorem mulf_bcastCol {A B : ℕ} (h : (⟨2, ![A, 1]⟩ : Shape).BroadcastsInDim ⟨2, ![A, B]⟩ ![0, 1])
    (g : FVec Ideal ⟨2, ![A, B]⟩ .f32) (n : FVec Ideal ⟨2, ![A, 1]⟩ .f32) :
    mulf g (broadcastInDim ⟨2, ![A, B]⟩ ![0, 1] h n) = scaleRows g n :=
  funext fun i => by
    show g i * broadcastInDim ⟨2, ![A, B]⟩ ![0, 1] h n i = g i * n (col0 i)
    rw [bcastCol_apply]

/-- A row [1, B] broadcast to [A, B] along its unit axis reads, at `i`, the row's entry in the column of `i`. -/
theorem bcastRow_apply {A B : ℕ} (h : (⟨2, ![1, B]⟩ : Shape).BroadcastsInDim ⟨2, ![A, B]⟩ ![0, 1])
    (b : (⟨2, ![1, B]⟩ : Shape).Idx → EReal) (i : (⟨2, ![A, B]⟩ : Shape).Idx) :
    broadcastInDim ⟨2, ![A, B]⟩ ![0, 1] h b i = b (row0 i) :=
  broadcastInDim_apply _ h b i (row0 i) (fun a => match a with
    | ⟨0, _⟩ => by show 0 = if (1 : ℕ) = 1 then 0 else (i 0).val; rw [if_pos rfl]
    | ⟨1, _⟩ => by
      show (i 1).val = if B = 1 then 0 else (i 1).val
      split
      · have := idx2_lt1 i; omega
      · rfl)

/-- The host's sum of `a` with the row `b` broadcast over the rows is `addRow a b`. -/
theorem addf_bcastRow {A B : ℕ} (h : (⟨2, ![1, B]⟩ : Shape).BroadcastsInDim ⟨2, ![A, B]⟩ ![0, 1])
    (a : FVec Ideal ⟨2, ![A, B]⟩ .f32) (b : FVec Ideal ⟨2, ![1, B]⟩ .f32) :
    addf a (broadcastInDim ⟨2, ![A, B]⟩ ![0, 1] h b) = addRow a b :=
  funext fun i => by
    show a i + broadcastInDim ⟨2, ![A, B]⟩ ![0, 1] h b i = a i + b (row0 i)
    rw [bcastRow_apply]

/-- The host's maximum of `addRow a b` with the zero constant broadcast to the whole shape is `reluRow a b`. -/
theorem maximumf_bcastZero {A B : ℕ} (h : (⟨0, ![]⟩ : Shape).BroadcastsInDim ⟨2, ![A, B]⟩ ![])
    (a : (⟨2, ![A, B]⟩ : Shape).Idx → EReal) (b : (⟨2, ![1, B]⟩ : Shape).Idx → EReal) :
    maximumf (F := Ideal) (s := ⟨2, ![A, B]⟩) (φ := .f32) (addRow a b)
      (broadcastInDim ⟨2, ![A, B]⟩ ![] h (constant (F := Ideal) ⟨0, ![]⟩ .f32 0x00000000#32)) = reluRow a b :=
  funext fun i => rfl

/-- A column [A] cast to [A, 1] is that column broadcast along a new trailing unit axis. -/
theorem colCast_eq_bcast {A : ℕ} {α : Type} (hc : (⟨1, ![A]⟩ : Shape).ShapeCasts ⟨2, ![A, 1]⟩)
    (hb : (⟨1, ![A]⟩ : Shape).BroadcastsInDim ⟨2, ![A, 1]⟩ ![0]) (v : (⟨1, ![A]⟩ : Shape).Idx → α) :
    shapeCast ⟨2, ![A, 1]⟩ v hc = broadcastInDim ⟨2, ![A, 1]⟩ ![0] hb v :=
  funext fun i => by
    have hi1 : (i 1).val = 0 := by have := idx2_lt1 i; omega
    rw [shapeCast_apply v hc i (ix1 (⟨(i 0).val, idx2_lt0 i⟩ : Fin A)) (by
          rw [Shape.rowMajor_val_two, Shape.rowMajor_val_one]
          show (i 0).val = (i 0).val * 1 + (i 1).val
          rw [hi1, Nat.mul_one, Nat.add_zero]),
      broadcastInDim_apply _ hb v i (ix1 (⟨(i 0).val, idx2_lt0 i⟩ : Fin A)) (fun a => match a with
        | ⟨0, _⟩ => by
          show (i 0).val = if A = 1 then 0 else (i 0).val
          split
          · have := idx2_lt0 i; omega
          · rfl)]

/-- A row [B] cast to [1, B] is that row broadcast along a new leading unit axis. -/
theorem rowCast_eq_bcast {B : ℕ} {α : Type} (hc : (⟨1, ![B]⟩ : Shape).ShapeCasts ⟨2, ![1, B]⟩)
    (hb : (⟨1, ![B]⟩ : Shape).BroadcastsInDim ⟨2, ![1, B]⟩ ![1]) (v : (⟨1, ![B]⟩ : Shape).Idx → α) :
    shapeCast ⟨2, ![1, B]⟩ v hc = broadcastInDim ⟨2, ![1, B]⟩ ![1] hb v :=
  funext fun i => by
    have hi0 : (i 0).val = 0 := by have := idx2_lt0 i; omega
    rw [shapeCast_apply v hc i (ix1 (⟨(i 1).val, idx2_lt1 i⟩ : Fin B)) (by
          rw [Shape.rowMajor_val_two, Shape.rowMajor_val_one]
          show (i 1).val = (i 0).val * B + (i 1).val
          rw [hi0, Nat.zero_mul, Nat.zero_add]),
      broadcastInDim_apply _ hb v i (ix1 (⟨(i 1).val, idx2_lt1 i⟩ : Fin B)) (fun a => match a with
        | ⟨0, _⟩ => by
          show (i 1).val = if B = 1 then 0 else (i 1).val
          split
          · have := idx2_lt1 i; omega
          · rfl)]

/-- The host's `dot_general` of an [A, K] by a [K, B] matrix, contracting the one shared axis, is the matrix product:
    for any dimension record whose index facts say the left index takes the output row and the contraction position and
    the right index the contraction position and the output column. -/
theorem dotGeneral_eq_matProd {A K B : ℕ}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (sched : HostSchedule)
    (L : FVec Ideal ⟨2, ![A, K]⟩ .f32) (R : FVec Ideal ⟨2, ![K, B]⟩ .f32) :
    FloatOps.dotGeneral d prec sched L R = matProd L R :=
  funext fun i => by
    rw [Ideal.dotGeneral_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

/-! ## Inside a vector unit's body -/

/-- The body's product of a block `x0` with a column block `x1` broadcast over the columns is `scaleRows x0 x1`. -/
theorem mulf_broadcastTo_col {A B : ℕ} (h : (⟨2, ![A, 1]⟩ : Shape).Broadcasts ⟨2, ![A, B]⟩)
    (x0 : FVec Ideal ⟨2, ![A, B]⟩ .f32) (x1 : FVec Ideal ⟨2, ![A, 1]⟩ .f32) :
    mulf x0 (broadcastTo ⟨2, ![A, B]⟩ x1 h) = scaleRows x0 x1 :=
  funext fun i => by
    show x0 i * broadcastTo ⟨2, ![A, B]⟩ x1 h i = x0 i * x1 (col0 i)
    refine congrArg (x0 i * ·) (broadcastTo_apply x1 h i (col0 i) fun a => ?_)
    match a with
    | ⟨0, _⟩ =>
      show (i 0).val = if A = 1 then 0 else (i 0).val
      split
      · have := idx2_lt0 i; omega
      · rfl
    | ⟨1, _⟩ => rfl

/-- The body's sum of a block `x0` with a row block `x1` broadcast over the rows is `addRow x0 x1`. -/
theorem addf_broadcastTo_row {A B : ℕ} (h : (⟨2, ![1, B]⟩ : Shape).Broadcasts ⟨2, ![A, B]⟩)
    (x0 : FVec Ideal ⟨2, ![A, B]⟩ .f32) (x1 : FVec Ideal ⟨2, ![1, B]⟩ .f32) :
    addf x0 (broadcastTo ⟨2, ![A, B]⟩ x1 h) = addRow x0 x1 :=
  funext fun i => by
    show x0 i + broadcastTo ⟨2, ![A, B]⟩ x1 h i = x0 i + x1 (row0 i)
    refine congrArg (x0 i + ·) (broadcastTo_apply x1 h i (row0 i) fun a => ?_)
    match a with
    | ⟨0, _⟩ => rfl
    | ⟨1, _⟩ =>
      show (i 1).val = if B = 1 then 0 else (i 1).val
      split
      · have := idx2_lt1 i; omega
      · rfl

/-- The body's maximum of `addRow x0 x1` with the zero splat is `reluRow x0 x1`. -/
theorem maximumf_splatZero {A B : ℕ} (x0 : (⟨2, ![A, B]⟩ : Shape).Idx → EReal) (x1 : (⟨2, ![1, B]⟩ : Shape).Idx → EReal) :
    maximumf (F := Ideal) (s := ⟨2, ![A, B]⟩) (φ := .f32) (addRow x0 x1)
      (broadcast ⟨2, ![A, B]⟩ (Scalar.ofBits (F := Ideal) .f32 0x00000000#32)) = reluRow x0 x1 :=
  funext fun i => rfl

/-- The matrix unit's product into a zero accumulator is the matrix product (the operands' change of float format is
    the identity on extended reals), under the same index facts as `dotGeneral_eq_matProd`. -/
theorem matmul_eq_matProd {A K B : ℕ} {φ₁ φ₂ : FTy}
    (d : DotDims ⟨2, ![A, K]⟩ ⟨2, ![K, B]⟩ ⟨2, ![A, B]⟩) (hr : d.contr.rank = 1) (hs : d.contr.size ⟨0, by omega⟩ = K)
    (hl0 : ∀ (i : (⟨2, ![A, B]⟩ : Shape).Idx) (q : d.contr.Idx), (d.lhsIdx i q 0).val = (i 0).val)
    (hl1 : ∀ (i : (⟨2, ![A, B]⟩ : Shape).Idx) (q : d.contr.Idx), (d.lhsIdx i q 1).val = (q ⟨0, by omega⟩).val)
    (hr0 : ∀ (i : (⟨2, ![A, B]⟩ : Shape).Idx) (q : d.contr.Idx), (d.rhsIdx i q 0).val = (q ⟨0, by omega⟩).val)
    (hr1 : ∀ (i : (⟨2, ![A, B]⟩ : Shape).Idx) (q : d.contr.Idx), (d.rhsIdx i q 1).val = (i 1).val)
    (prec : Option ContractPrecision) (L : FVec Ideal ⟨2, ![A, K]⟩ φ₁) (R : FVec Ideal ⟨2, ![K, B]⟩ φ₂) :
    FloatOps.matmul d prec L R (constant ⟨2, ![A, B]⟩ .f32 0x00000000#32) = matProd (fun j => L j) (fun j => R j) :=
  funext fun i => by
    rw [Ideal.matmul_constant_zero_apply, ← Equiv.sum_comp (contrEquiv1 d K hr hs).symm]
    refine Finset.sum_congr rfl fun k _ => ?_
    have hk := contrEquiv1_symm_val d K hr hs k
    have el : d.lhsIdx i ((contrEquiv1 d K hr hs).symm k) = ix2 (⟨(i 0).val, idx2_lt0 i⟩ : Fin A) k :=
      funext fun a => Fin.ext (by
        match a with
        | ⟨0, _⟩ => exact hl0 _ _
        | ⟨1, _⟩ => exact (hl1 _ _).trans hk)
    have er : d.rhsIdx i ((contrEquiv1 d K hr hs).symm k) = ix2 k (⟨(i 1).val, idx2_lt1 i⟩ : Fin B) :=
      funext fun a => Fin.ext (by
        match a with
        | ⟨0, _⟩ => exact (hr0 _ _).trans hk
        | ⟨1, _⟩ => exact hr1 _ _)
    rw [el, er]

end Cert.RowOps

end
-- ==== Proof.LibRowBand.lean ====
/-
  Rows of a band against rows of the whole.

  A blocked evaluation hands a body a band of rows of a matrix. Every row operation of LibRowOps computes row r of
  its result from row r of its matrix operand alone (and from the common right factor or the common row), so when
  row p of a block is row r of the whole array (`RowEq`), the same holds of the results:

    matProd x w      against  matProd X w      (a common right factor w)
    x + y            against  X + Y            (entry by entry)
    addRow x b       against  addRow X b       (a common row b)
    reluRow x b      against  reluRow X b

  Also: a sum of three entries taken in the order (m + b) + n is the sum (m + n) + b, entry by entry; addition of
  extended reals is commutative and associative, infinities included.
-/
import proofs.«105941_j71296457114107_1_alg».proof.Proof.LibRowOps

noncomputable section

namespace Cert.RowBand

open Idealize.ShloMosaic Idealize.ShloMosaic.ValueIdx Cert.RowOps

/-- Row `p` of the block `x` is row `r` of the array `X`. -/
def RowEq {a N K : ℕ} (x : (⟨2, ![a, K]⟩ : Shape).Idx → EReal) (X : (⟨2, ![N, K]⟩ : Shape).Idx → EReal)
    (p : Fin a) (r : Fin N) : Prop :=
  ∀ k : Fin K, x (ix2 p k) = X (ix2 r k)

/-- The matrix product with a common right factor: row r of the product is ∑ k, (row r)(k) · w(k, ·). -/
theorem RowEq.matProd {a N K B : ℕ} {x : (⟨2, ![a, K]⟩ : Shape).Idx → EReal} {X : (⟨2, ![N, K]⟩ : Shape).Idx → EReal}
    {p : Fin a} {r : Fin N} (h : RowEq x X p r) (w : (⟨2, ![K, B]⟩ : Shape).Idx → EReal) :
    RowEq (Cert.RowOps.matProd x w) (Cert.RowOps.matProd X w) p r := fun c => by
  show ∑ k : Fin K, x (ix2 p k) * w (ix2 k c) = ∑ k : Fin K, X (ix2 r k) * w (ix2 k c)
  exact Finset.sum_congr rfl fun k _ => by rw [h k]

/-- Entry-by-entry sums. -/
theorem RowEq.add {a N K : ℕ} {x y : (⟨2, ![a, K]⟩ : Shape).Idx → EReal} {X Y : (⟨2, ![N, K]⟩ : Shape).Idx → EReal}
    {p : Fin a} {r : Fin N} (hx : RowEq x X p r) (hy : RowEq y Y p r) :
    RowEq (fun i => x i + y i) (fun i => X i + Y i) p r := fun k => by
  show x (ix2 p k) + y (ix2 p k) = X (ix2 r k) + Y (ix2 r k)
  rw [hx k, hy k]

/-- A common row added to every row. -/
theorem RowEq.addRow {a N K : ℕ} {x : (⟨2, ![a, K]⟩ : Shape).Idx → EReal} {X : (⟨2, ![N, K]⟩ : Shape).Idx → EReal}
    {p : Fin a} {r : Fin N} (h : RowEq x X p r) (b : (⟨2, ![1, K]⟩ : Shape).Idx → EReal) :
    RowEq (Cert.RowOps.addRow x b) (Cert.RowOps.addRow X b) p r := fun k => by
  show x (ix2 p k) + b (ix2 (0 : Fin 1) k) = X (ix2 r k) + b (ix2 (0 : Fin 1) k)
  rw [h k]

/-- A common row added to every row, then cut off below at zero. -/
theorem RowEq.reluRow {a N K : ℕ} {x : (⟨2, ![a, K]⟩ : Shape).Idx → EReal} {X : (⟨2, ![N, K]⟩ : Shape).Idx → EReal}
    {p : Fin a} {r : Fin N} (h : RowEq x X p r) (b : (⟨2, ![1, K]⟩ : Shape).Idx → EReal) :
    RowEq (Cert.RowOps.reluRow x b) (Cert.RowOps.reluRow X b) p r := fun k => by
  show max (Cert.RowOps.addRow x b (ix2 p k)) _ = max (Cert.RowOps.addRow X b (ix2 r k)) _
  rw [RowEq.addRow h b k]

/-- (m + b) + n = (m + n) + b at every entry, with the row b read in the entry's column. -/
theorem addRow_add_comm {A B : ℕ} (m n : (⟨2, ![A, B]⟩ : Shape).Idx → EReal) (b : (⟨2, ![1, B]⟩ : Shape).Idx → EReal) :
    (fun i => addRow m b i + n i) = addRow (fun i => m i + n i) b :=
  funext fun i => by
    show m i + b (row0 i) + n i = m i + n i + b (row0 i)
    exact add_right_comm _ _ _

end Cert.RowBand

end
-- ==== Proof.Spec.lean ====
/-
  What both programs compute, as row operations on matrices of extended reals.

  One layer of the graph convolution takes the aggregated neighbour features A and the node features X (both
  [N, K]), two weight matrices and a bias row, and returns  relu(A · W_rel + X · W_root + b)  ([N, M]):
  `layer`. The head takes the second layer's output H and returns  relu(H · W1 + b1) · W2 + b2: `head`.
  Each is given for any number of rows N, so that the same definition reads a band of rows and the whole array;
  row r of either result depends on row r of A, X (or H) only (`layer_rowEq`, `head_rowEq`).
-/
import proofs.«105941_j71296457114107_1_alg».proof.Proof.LibRowBand

noncomputable section

namespace Cert.Spec

open Idealize.ShloMosaic Idealize.ShloMosaic.ValueIdx Cert.RowOps Cert.RowBand

/-- relu(A · W_rel + X · W_root + b), the bias row added last. -/
def layer {N K M : ℕ} (A X : (⟨2, ![N, K]⟩ : Shape).Idx → EReal) (Wroot Wrel : (⟨2, ![K, M]⟩ : Shape).Idx → EReal)
    (b : (⟨2, ![1, M]⟩ : Shape).Idx → EReal) : (⟨2, ![N, M]⟩ : Shape).Idx → EReal :=
  reluRow (fun i => matProd A Wrel i + matProd X Wroot i) b

/-- relu(H · W1 + b1) · W2 + b2. -/
def head {N K L M : ℕ} (H : (⟨2, ![N, K]⟩ : Shape).Idx → EReal) (W1 : (⟨2, ![K, L]⟩ : Shape).Idx → EReal)
    (b1 : (⟨2, ![1, L]⟩ : Shape).Idx → EReal) (W2 : (⟨2, ![L, M]⟩ : Shape).Idx → EReal)
    (b2 : (⟨2, ![1, M]⟩ : Shape).Idx → EReal) : (⟨2, ![N, M]⟩ : Shape).Idx → EReal :=
  addRow (matProd (reluRow (matProd H W1) b1) W2) b2

/-- Row r of a layer's output is computed from row r of A and row r of X. -/
theorem layer_rowEq {a N K M : ℕ} {x0 x1 : (⟨2, ![a, K]⟩ : Shape).Idx → EReal} {A X : (⟨2, ![N, K]⟩ : Shape).Idx → EReal}
    {p : Fin a} {r : Fin N} (hA : RowEq x0 A p r) (hX : RowEq x1 X p r)
    (Wroot Wrel : (⟨2, ![K, M]⟩ : Shape).Idx → EReal) (b : (⟨2, ![1, M]⟩ : Shape).Idx → EReal) :
    RowEq (layer x0 x1 Wroot Wrel b) (layer A X Wroot Wrel b) p r :=
  ((hA.matProd Wrel).add (hX.matProd Wroot)).reluRow b

/-- Row r of the head's output is computed from row r of H. -/
theorem head_rowEq {a N K L M : ℕ} {h : (⟨2, ![a, K]⟩ : Shape).Idx → EReal} {H : (⟨2, ![N, K]⟩ : Shape).Idx → EReal}
    {p : Fin a} {r : Fin N} (hH : RowEq h H p r) (W1 : (⟨2, ![K, L]⟩ : Shape).Idx → EReal)
    (b1 : (⟨2, ![1, L]⟩ : Shape).Idx → EReal) (W2 : (⟨2, ![L, M]⟩ : Shape).Idx → EReal)
    (b2 : (⟨2, ![1, M]⟩ : Shape).Idx → EReal) :
    RowEq (head h W1 b1 W2 b2) (head H W1 b1 W2 b2) p r :=
  (((hH.matProd W1).reluRow b1).matProd W2).addRow b2

end Cert.Spec

end
-- ==== Proof.Region0.lean ====
/-
  The first region: one graph-convolution layer, computed band by band.

  The region's grid has ten points. At point t its body reads rows [10000·t, 10000·t + 10000) of the aggregated
  neighbour features and of the node features (each [100000, 16]), both weight matrices ([16, 32]) and the bias row
  ([1, 32]) whole, and leaves  relu(A_band · W_rel + X_band · W_root + b)  in rows [10000·t, 10000·t + 10000) of
  the output ([100000, 32]).

  Three steps. (1) The body's value is `Cert.Spec.layer` of its five operands on a band of 10000 rows: each product
  into a zero accumulator is the matrix product, the broadcast bias is a common row added to every row, the maximum
  with the zero splat is the cut-off at zero. (2) What point t writes back is block t of `Cert.Spec.layer` of the
  whole arrays: row p of a band is row 10000·t + p of its array, the weights and the bias row are the same for every
  band, and a layer's row depends on the same row of its two matrix operands only (`Cert.Spec.layer_rowEq`).
  (3) The ten blocks cover the output array, so after the region the array is that layer.
-/
import proofs.«105941_j71296457114107_1_alg».proof.Proof.Spec
import proofs.«105941_j71296457114107_1_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Region0

open Idealize.ShloMosaic Idealize.ShloMosaic.TcCoe Idealize.SL.Sem Idealize.ShloMosaic.ValueIdx Cert.KernelIdeal Cert.KernelIdeal.Gen Cert.RowOps Cert.RowBand

/-! ## The body's payload as row operations -/

/-- The contraction record of both products in the body: [10000, 16] by [16, 32], over the one shared axis. -/
abbrev dd := dot_S10000x16_S16x32_S10000x32_1_0_0_1_n_n

/-- The left index takes the output's row. -/
theorem dd_lhs0 (i : S10000x32.Idx) (q : dd.contr.Idx) : (dd.lhsIdx i q 0).val = (i 0).val := by
  unfold DotDims.lhsIdx
  rw [dif_neg (show ¬(0 : Fin S10000x16.rank) ∈ dd.lhsBatch by decide),
    dif_pos (show (0 : Fin S10000x16.rank) ∈ dd.lhsNonContracting by decide)]
  rfl

/-- The left index takes the contraction position as its column. -/
theorem dd_lhs1 (i : S10000x32.Idx) (q : dd.contr.Idx) : (dd.lhsIdx i q 1).val = (q ⟨0, by decide⟩).val :=
  dd.lhsIdx_val_of_single rfl i q

/-- The right index takes the contraction position as its row. -/
theorem dd_rhs0 (i : S10000x32.Idx) (q : dd.contr.Idx) : (dd.rhsIdx i q 0).val = (q ⟨0, by decide⟩).val :=
  dd.rhsIdx_val_of_single rfl i q

/-- The right index takes the output's column. -/
theorem dd_rhs1 (i : S10000x32.Idx) (q : dd.contr.Idx) : (dd.rhsIdx i q 1).val = (i 1).val := by
  unfold DotDims.rhsIdx
  rw [dif_neg (show ¬(1 : Fin S16x32.rank) ∈ dd.rhsBatch by decide),
    dif_pos (show (1 : Fin S16x32.rank) ∈ dd.rhsNonContracting by decide)]
  rfl

/-- Each product of the body, into a zero accumulator, is the matrix product. -/
theorem mm_eq (L : FVec Ideal S10000x16 .f32) (R : FVec Ideal S16x32 .f32) :
    matmul (F := Ideal) dd none L R (constant S10000x32 .f32 0x00000000#32) = matProd L R :=
  matmul_eq_matProd dd rfl rfl dd_lhs0 dd_lhs1 dd_rhs0 dd_rhs1 none L R

/-- The body's payload is one layer on its band of rows: relu(x0 · w3 + x1 · w2 + b). -/
theorem pay_eq (x0 x1 : Vec Ideal S10000x16 .f32) (w3 w2 : Vec Ideal S16x32 .f32) (b : Vec Ideal S1x32 .f32) :
    k0_pay1 (F := Ideal) x0 x1 w3 w2 b = Cert.Spec.layer x0 x1 w2 w3 b := by
  unfold k0_pay1 Cert.Spec.layer
  show maximumf (F := Ideal) (addf (addf
        (matmul dd none (shapeCast S10000x16 x0 shapeCasts_S10000x16_S10000x16) w3 (constant S10000x32 .f32 0x00000000#32))
        (matmul dd none x1 w2 (constant S10000x32 .f32 0x00000000#32)))
      (broadcastTo S10000x32 (shapeCast S1x32 b shapeCasts_S1x32_S1x32) broadcasts_S1x32_S10000x32))
    (broadcast S10000x32 (Scalar.ofBits (F := Ideal) .f32 0x00000000#32)) = _
  rw [shapeCast_self, shapeCast_self, mm_eq, mm_eq, addf_broadcastTo_row]
  exact maximumf_splatZero _ _

/-! ## What one grid point writes back -/

theorem hz : (![0, 0] : Fin 2 → Nat) = fun _ => 0 := funext fun a => by fin_cases a <;> rfl

/-- The block index maps, decided over the ten grid points: the two row-blocked inputs move with the output along
    the rows and sit at column block 0; the weights and the bias row are one block each; the output's row block
    index is at most 9 and its column block index is 0. -/
theorem idx_facts : ∀ t : Fin cfg0.N,
    win0_0.index t (0 : Fin 2) = win0_5.index t (0 : Fin 2) ∧ win0_0.index t (1 : Fin 2) = 0
    ∧ win0_1.index t (0 : Fin 2) = win0_5.index t (0 : Fin 2) ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 9 ∧ win0_5.index t (1 : Fin 2) = 0 :=
  (by decide +kernel : ∀ t : Fin grid0.N, _)

/-- Every row block of the output is some point's. -/
theorem idx_onto : ∀ q0 : Fin 10, ∃ t : Fin cfg0.N, win0_5.index t = ![q0.val, 0] :=
  (by decide +kernel : ∀ q0 : Fin 10, ∃ t : Fin grid0.N, win0_5.index t = ![q0.val, 0])

/-- One entry of a band's layer against the entry of the whole layer in the same row: the band's row p is the
    arrays' row r, the weights and the bias row are the whole arrays. -/
theorem entry_eq {x0 x1 : S10000x16.Idx → EReal} {x2 x3 : S16x32.Idx → EReal} {x4 : S1x32.Idx → EReal}
    {A X : S100000x16.Idx → EReal} {Wroot Wrel : S16x32.Idx → EReal} {b : S1x32.Idx → EReal}
    (p : Fin 10000) (q : Fin 32) (r : Fin 100000) (e : S100000x32.Idx) (he : e = ix2 r q)
    (hA : RowEq x0 A p r) (hX : RowEq x1 X p r) (h2 : x2 = Wroot) (h3 : x3 = Wrel) (h4 : x4 = b) :
    Cert.Spec.layer x0 x1 x2 x3 x4 (ix2 p q) = Cert.Spec.layer A X Wroot Wrel b e := by
  subst h2 h3 h4 he
  exact Cert.Spec.layer_rowEq hA hX _ _ _ q

/-! ## The blocks cover the output array -/

/-- An index of the output array is in point t's block iff each coordinate is in the block's range on its axis. -/
theorem mem_blk (t : Fin cfg0.N) (i : S100000x32.Idx) :
    i ∈ ((cfg0.win 5).blk t).view.set ↔ ∀ a : Fin 2, win0_5.index t a * S10000x32.size a ≤ (i a).val
      ∧ (i a).val < win0_5.index t a * S10000x32.size a + S10000x32.size a := by
  show i ∈ ((View.whole main_v15).slice (win0_5.rect t)).set ↔ _
  rw [View.set_slice_whole, Rect.mem_set_unit]
  exact Iff.rfl

/-- Every index of the output array lies in the block of the point whose row block index is its row divided by
    10000; that point writes its block back. -/
theorem cover (i : S100000x32.Idx) :
    ∃ t : Fin cfg0.N, (cfg0.win 5).flush t = true ∧ i ∈ ((cfg0.win 5).blk t).view.set := by
  have hi0 : (i 0).val < 100000 := idx2_lt0 i
  have hi1 : (i 1).val < 32 := idx2_lt1 i
  obtain ⟨t, ht⟩ := idx_onto ⟨(i 0).val / 10000, by omega⟩
  have q0 : win0_5.index t (0 : Fin 2) = (i 0).val / 10000 := congrFun ht 0
  have q1 : win0_5.index t (1 : Fin 2) = 0 := congrFun ht 1
  refine ⟨t, flush0_5 t, ?_⟩
  rw [mem_blk]
  intro a
  match a with
  | ⟨0, _⟩ =>
    show win0_5.index t (0 : Fin 2) * 10000 ≤ (i 0).val ∧ (i 0).val < win0_5.index t (0 : Fin 2) * 10000 + 10000
    omega
  | ⟨1, _⟩ =>
    show win0_5.index t (1 : Fin 2) * 32 ≤ (i 1).val ∧ (i 1).val < win0_5.index t (1 : Fin 2) * 32 + 32
    omega

section Point
variable (V : (c : Dev nD) → (b : Ref sig .tc) → Buf (Elt Ideal) ((c : Thread nD τ).loc b))

/-- Row p of the block of aggregated neighbour features at point t is row (row block index)·10000 + p of the array:
    an element of a block sits, on each axis, at the block index times the block's extent plus its own coordinate. -/
theorem rowEq0 (c : Dev nD) (t : Fin cfg0.N) (p : Fin 10000) (r : Fin 100000)
    (hr : r.val = win0_5.index t (0 : Fin 2) * 10000 + p.val) :
    RowEq (iblk0 V c 0 t) (V c main_v13) p r := by
  obtain ⟨e0, e1, -⟩ := idx_facts t
  intro k
  show V c main_v13 (((cfg0.win 0).blk t).view.emb (ix2 p k)) = V c main_v13 (ix2 r k)
  refine congrArg (V c main_v13) ?_
  funext a; apply Fin.ext
  match a with
  | ⟨0, _⟩ => show win0_0.index t (0 : Fin 2) * 10000 + 1 * p.val = r.val; omega
  | ⟨1, _⟩ => show win0_0.index t (1 : Fin 2) * 16 + 1 * k.val = k.val; omega

/-- The same for the block of node features. -/
theorem rowEq1 (c : Dev nD) (t : Fin cfg0.N) (p : Fin 10000) (r : Fin 100000)
    (hr : r.val = win0_5.index t (0 : Fin 2) * 10000 + p.val) :
    RowEq (iblk0 V c 1 t) (V c main_arg0) p r := by
  obtain ⟨-, -, e2, e3, -⟩ := idx_facts t
  intro k
  show V c main_arg0 (((cfg0.win 1).blk t).view.emb (ix2 p k)) = V c main_arg0 (ix2 r k)
  refine congrArg (V c main_arg0) ?_
  funext a; apply Fin.ext
  match a with
  | ⟨0, _⟩ => show win0_1.index t (0 : Fin 2) * 10000 + 1 * p.val = r.val; omega
  | ⟨1, _⟩ => show win0_1.index t (1 : Fin 2) * 16 + 1 * k.val = k.val; omega

/-- The block of the first weight matrix is the whole matrix at every point: its block index is (0, 0). -/
theorem whole2 (c : Dev nD) (t : Fin cfg0.N) :
    (iblk0 V c 2 t : S16x32.Idx → EReal) = (V c main_arg2 : S16x32.Idx → EReal) := by
  obtain ⟨-, -, -, -, e4, e5, -⟩ := idx_facts t
  funext y
  show V c main_arg2 (((cfg0.win 2).blk t).view.emb y) = V c main_arg2 y
  refine congrArg (V c main_arg2) ?_
  funext a; apply Fin.ext
  match a with
  | ⟨0, _⟩ => show win0_2.index t (0 : Fin 2) * 16 + 1 * (y 0).val = (y 0).val; omega
  | ⟨1, _⟩ => show win0_2.index t (1 : Fin 2) * 32 + 1 * (y 1).val = (y 1).val; omega

/-- Likewise the second weight matrix. -/
theorem whole3 (c : Dev nD) (t : Fin cfg0.N) :
    (iblk0 V c 3 t : S16x32.Idx → EReal) = (V c main_arg3 : S16x32.Idx → EReal) := by
  obtain ⟨-, -, -, -, -, -, e6, e7, -⟩ := idx_facts t
  funext y
  show V c main_arg3 (((cfg0.win 3).blk t).view.emb y) = V c main_arg3 y
  refine congrArg (V c main_arg3) ?_
  funext a; apply Fin.ext
  match a with
  | ⟨0, _⟩ => show win0_3.index t (0 : Fin 2) * 16 + 1 * (y 0).val = (y 0).val; omega
  | ⟨1, _⟩ => show win0_3.index t (1 : Fin 2) * 32 + 1 * (y 1).val = (y 1).val; omega

/-- Likewise the bias row. -/
theorem whole4 (c : Dev nD) (t : Fin cfg0.N) :
    (iblk0 V c 4 t : S1x32.Idx → EReal) = (V c main_v14 : S1x32.Idx → EReal) := by
  obtain ⟨-, -, -, -, -, -, -, -, e8, e9, -⟩ := idx_facts t
  funext y
  show V c main_v14 (((cfg0.win 4).blk t).view.emb y) = V c main_v14 y
  refine congrArg (V c main_v14) ?_
  funext a; apply Fin.ext
  match a with
  | ⟨0, _⟩ => show win0_4.index t (0 : Fin 2) * 1 + 1 * (y 0).val = (y 0).val; omega
  | ⟨1, _⟩ => show win0_4.index t (1 : Fin 2) * 32 + 1 * (y 1).val = (y 1).val; omega

/-- Entry (p, q) of the output block at point t sits in the output array at row (row block index)·10000 + p,
    column q. -/
theorem emb5 (t : Fin cfg0.N) (p : Fin 10000) (q : Fin 32) (r : Fin 100000)
    (hr : r.val = win0_5.index t (0 : Fin 2) * 10000 + p.val) :
    (((cfg0.win 5).blk t).view.emb (ix2 p q) : S100000x32.Idx) = ix2 r q := by
  obtain ⟨-, -, -, -, -, -, -, -, -, -, -, e11⟩ := idx_facts t
  funext a; apply Fin.ext
  match a with
  | ⟨0, _⟩ => show win0_5.index t (0 : Fin 2) * 10000 + 1 * p.val = r.val; omega
  | ⟨1, _⟩ => show win0_5.index t (1 : Fin 2) * 32 + 1 * q.val = q.val; omega

/-- What point t writes back is block t of the layer of the whole arrays. -/
theorem flushed_eq (c : Dev nD) (t : Fin cfg0.N) :
    (dat0 (F := Ideal) V c).flushed 5 t = ((cfg0.win 5).blk t).view.read (Elt Ideal)
      (Cert.Spec.layer (V c main_v13) (V c main_arg0) (V c main_arg2) (V c main_arg3) (V c main_v14)) := by
  show (cfg0.win 5).cut (grid0.coords t) ((dat0 (F := Ideal) V c).after 5 t) = _
  rw [after0_5]
  unfold out0_5
  rw [View.canon_unit_zero hz]
  simp only [View.ld_unit_zero (S := S10000x16) hz, View.ld_unit_zero (S := S16x32) hz, View.ld_unit_zero (S := S1x32) hz]
  rw [pay_eq]
  funext j
  show Cert.Spec.layer (iblk0 V c 0 t) (iblk0 V c 1 t) (iblk0 V c 2 t) (iblk0 V c 3 t) (iblk0 V c 4 t) j
    = Cert.Spec.layer (V c main_v13) (V c main_arg0) (V c main_arg2) (V c main_arg3) (V c main_v14)
        (((cfg0.win 5).blk t).view.emb j)
  obtain ⟨p, q, rfl⟩ : ∃ (p : Fin 10000) (q : Fin 32), j = ix2 p q := ⟨j 0, j 1, eq_ix2 j⟩
  obtain ⟨-, -, -, -, -, -, -, -, -, -, e10, -⟩ := idx_facts t
  have hp : p.val < 10000 := p.isLt
  exact entry_eq p q ⟨win0_5.index t (0 : Fin 2) * 10000 + p.val, by omega⟩ _
    (emb5 t p q _ rfl) (rowEq0 V c t p _ rfl) (rowEq1 V c t p _ rfl) (whole2 V c t) (whole3 V c t) (whole4 V c t)

end Point

/-! ## The output array after the region -/

/-- After the region, the output array is one layer of the arrays the input windows stage: every point writes back
    its block of that layer, and the blocks cover the array. -/
theorem array (V : (c : Dev nD) → (b : Ref sig .tc) → Buf (Elt Ideal) ((c : Thread nD τ).loc b)) (c : Dev nD) :
    (dat0 (F := Ideal) V c).arrAt 5 cfg0.N
      = Cert.Spec.layer (V c main_v13) (V c main_arg0) (V c main_arg2) (V c main_arg3) (V c main_v14) :=
  (dat0 (F := Ideal) V c).arrAt_eq_of_cover 5 _ (fun t _ => flushed_eq V c t) cover

end Cert.KernelIdeal.Region0

end
-- ==== Proof.Region1.lean ====
/-
  The second region: the second layer of the graph convolution and the two-layer head, over ten bands of rows.

  The region's grid has ten points. Point t stages rows t·10000 … t·10000 + 9999 of the aggregated features and of
  the first layer's output (two [100000, 32] arrays), and the whole of every weight matrix and bias row; its body
  computes, on that band,

      relu(relu(A · W_rel + X · W_root + b) · W1 + b1) · W2 + b2

  and writes the [10000, 16] result back to rows t·10000 … of the output array. Read at extended reals the body is
  the row operations of Spec (`pay_eq`). Row r of each of them depends on row r of the matrix operand only, so what
  point t writes back is block t of the same function of the WHOLE arrays (`flushed_eq`); the ten blocks cover the
  output array (`cover`), which therefore ends holding that function (`array`).
-/
import proofs.«105941_j71296457114107_1_alg».proof.Proof.Spec
import proofs.«105941_j71296457114107_1_alg».proof.Proof.Gen.KernelIdeal.Frame
import Idealize.ShloMosaic.Lib.Pipeline.Value

set_option maxRecDepth 16384

noncomputable section

namespace Cert.KernelIdeal.Region1

open Idealize.ShloMosaic Idealize.ShloMosaic.TcCoe Idealize.SL.Sem Idealize.ShloMosaic.ValueIdx Cert.KernelIdeal Cert.KernelIdeal.Gen Cert.RowOps Cert.RowBand

/-! ## The body's value as row operations -/

/-- The three products of the body: each contracts the left operand's columns against the right operand's rows, so
    its left index takes the output row and the contraction position, its right index the contraction position and
    the output column; into a zero accumulator that is the matrix product. -/
theorem mm_32_64 (L : FVec Ideal S10000x32 .f32) (R : FVec Ideal S32x64 .f32) :
    matmul dot_S10000x32_S32x64_S10000x64_1_0_0_1_n_n none L R (constant S10000x64 .f32 0x00000000#32) = matProd L R :=
  matmul_eq_matProd dot_S10000x32_S32x64_S10000x64_1_0_0_1_n_n rfl rfl
    (fun i q => by
      unfold DotDims.lhsIdx
      rw [dif_neg (show ¬(0 : Fin S10000x32.rank) ∈ dot_S10000x32_S32x64_S10000x64_1_0_0_1_n_n.lhsBatch by decide),
        dif_pos (show (0 : Fin S10000x32.rank) ∈ dot_S10000x32_S32x64_S10000x64_1_0_0_1_n_n.lhsNonContracting by decide)]
      rfl)
    (fun i q => dot_S10000x32_S32x64_S10000x64_1_0_0_1_n_n.lhsIdx_val_of_single rfl i q)
    (fun i q => dot_S10000x32_S32x64_S10000x64_1_0_0_1_n_n.rhsIdx_val_of_single rfl i q)
    (fun i q => by
      unfold DotDims.rhsIdx
      rw [dif_neg (show ¬(1 : Fin S32x64.rank) ∈ dot_S10000x32_S32x64_S10000x64_1_0_0_1_n_n.rhsBatch by decide),
        dif_pos (show (1 : Fin S32x64.rank) ∈ dot_S10000x32_S32x64_S10000x64_1_0_0_1_n_n.rhsNonContracting by decide)]
      rfl)
    none L R

/-- The same for the head's first product, [10000, 64] by [64, 32]. -/
theorem mm_64_32 (L : FVec Ideal S10000x64 .f32) (R : FVec Ideal S64x32 .f32) :
    matmul dot_S10000x64_S64x32_S10000x32_1_0_0_1_n_n none L R (constant S10000x32 .f32 0x00000000#32) = matProd L R :=
  matmul_eq_matProd dot_S10000x64_S64x32_S10000x32_1_0_0_1_n_n rfl rfl
    (fun i q => by
      unfold DotDims.lhsIdx
      rw [dif_neg (show ¬(0 : Fin S10000x64.rank) ∈ dot_S10000x64_S64x32_S10000x32_1_0_0_1_n_n.lhsBatch by decide),
        dif_pos (show (0 : Fin S10000x64.rank) ∈ dot_S10000x64_S64x32_S10000x32_1_0_0_1_n_n.lhsNonContracting by decide)]
      rfl)
    (fun i q => dot_S10000x64_S64x32_S10000x32_1_0_0_1_n_n.lhsIdx_val_of_single rfl i q)
    (fun i q => dot_S10000x64_S64x32_S10000x32_1_0_0_1_n_n.rhsIdx_val_of_single rfl i q)
    (fun i q => by
      unfold DotDims.rhsIdx
      rw [dif_neg (show ¬(1 : Fin S64x32.rank) ∈ dot_S10000x64_S64x32_S10000x32_1_0_0_1_n_n.rhsBatch by decide),
        dif_pos (show (1 : Fin S64x32.rank) ∈ dot_S10000x64_S64x32_S10000x32_1_0_0_1_n_n.rhsNonContracting by decide)]
      rfl)
    none L R

/-- The same for the head's second product, [10000, 32] by [32, 16]. -/
theorem mm_32_16 (L : FVec Ideal S10000x32 .f32) (R : FVec Ideal S32x16 .f32) :
    matmul dot_S10000x32_S32x16_S10000x16_1_0_0_1_n_n none L R (constant S10000x16 .f32 0x00000000#32) = matProd L R :=
  matmul_eq_matProd dot_S10000x32_S32x16_S10000x16_1_0_0_1_n_n rfl rfl
    (fun i q => by
      unfold DotDims.lhsIdx
      rw [dif_neg (show ¬(0 : Fin S10000x32.rank) ∈ dot_S10000x32_S32x16_S10000x16_1_0_0_1_n_n.lhsBatch by decide),
        dif_pos (show (0 : Fin S10000x32.rank) ∈ dot_S10000x32_S32x16_S10000x16_1_0_0_1_n_n.lhsNonContracting by decide)]
      rfl)
    (fun i q => dot_S10000x32_S32x16_S10000x16_1_0_0_1_n_n.lhsIdx_val_of_single rfl i q)
    (fun i q => dot_S10000x32_S32x16_S10000x16_1_0_0_1_n_n.rhsIdx_val_of_single rfl i q)
    (fun i q => by
      unfold DotDims.rhsIdx
      rw [dif_neg (show ¬(1 : Fin S32x16.rank) ∈ dot_S10000x32_S32x16_S10000x16_1_0_0_1_n_n.rhsBatch by decide),
        dif_pos (show (1 : Fin S32x16.rank) ∈ dot_S10000x32_S32x16_S10000x16_1_0_0_1_n_n.rhsNonContracting by decide)]
      rfl)
    none L R

/-- The body's value, from its loaded blocks: the layer of the two feature bands (the products' sum, the bias row,
    the cut-off at zero), then the head. The body multiplies by W_rel first, so its third and fourth blocks are
    W_rel and W_root in that order. -/
theorem pay_eq (x0 x1 : Vec Ideal S10000x32 .f32) (w0 w1 : Vec Ideal S32x64 .f32) (b : Vec Ideal S1x64 .f32)
    (W1 : Vec Ideal S64x32 .f32) (b1 : Vec Ideal S1x32 .f32) (W2 : Vec Ideal S32x16 .f32) (b2 : Vec Ideal S1x16 .f32) :
    k1_pay1 (F := Ideal) x0 x1 w0 w1 b W1 b1 W2 b2
      = Cert.Spec.head (Cert.Spec.layer x0 x1 w1 w0 b) W1 b1 W2 b2 := by
  unfold k1_pay1 Cert.Spec.head Cert.Spec.layer
  simp only [shapeCast_self]
  rw [mm_32_64, mm_32_64, addf_broadcastTo_row broadcasts_S1x64_S10000x64, maximumf_splatZero (A := 10000) (B := 64),
    mm_64_32, addf_broadcastTo_row broadcasts_S1x32_S10000x32, maximumf_splatZero (A := 10000) (B := 32),
    mm_32_16, addf_broadcastTo_row broadcasts_S1x16_S10000x16]
  rfl

/-! ## What a point writes back -/

/-- The zero offsets of a whole-block load or store, as a constant function. -/
theorem hz : (![0, 0] : Fin 2 → Nat) = fun _ => 0 := funext fun a => by fin_cases a <;> rfl

/-- The whole output array as one function of the arrays the input windows stage: the second layer of the
    convolution on the aggregated and the node features, then the two-layer head. -/
abbrev G (V : (c : Dev nD) → (b : Ref sig .tc) → Buf (Elt Ideal) ((c : Thread nD τ).loc b)) (c : Dev nD) :=
  Cert.Spec.head (Cert.Spec.layer (V c main_v25) (V c main_v15) (V c main_arg5) (V c main_arg6) (V c main_v26))
    (V c main_arg8) (V c main_v27) (V c main_arg10) (V c main_v28)

/-- The block indices over the grid: the two row-blocked inputs move with the output along the rows and sit at
    column block 0; the output's row block is the point's number; every weight and bias row is one block at (0, 0). -/
theorem idx_facts : ∀ t : Fin cfg1.N,
    win1_0.index t (0 : Fin 2) = win1_9.index t (0 : Fin 2) ∧ win1_0.index t (1 : Fin 2) = 0
    ∧ win1_1.index t (0 : Fin 2) = win1_9.index t (0 : Fin 2) ∧ win1_1.index t (1 : Fin 2) = 0
    ∧ win1_9.index t (0 : Fin 2) = t.val ∧ win1_9.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_8.index t (0 : Fin 2) = 0 ∧ win1_8.index t (1 : Fin 2) = 0 :=
  (by decide +kernel : ∀ t : Fin grid1.N, _)

/-- An entry of the head of a layer over a band of rows against the same entry over the whole arrays: when row p of
    each band is row r of its array and the weights and bias rows are the same, entry (p, q) of the one is entry
    (r, q) of the other. -/
theorem band_entry
    {x0 x1 : (⟨2, ![10000, 32]⟩ : Shape).Idx → EReal} {A X : (⟨2, ![100000, 32]⟩ : Shape).Idx → EReal}
    {w2 w3 Wroot Wrel : (⟨2, ![32, 64]⟩ : Shape).Idx → EReal} {w4 b : (⟨2, ![1, 64]⟩ : Shape).Idx → EReal}
    {w5 W1 : (⟨2, ![64, 32]⟩ : Shape).Idx → EReal} {w6 b1 : (⟨2, ![1, 32]⟩ : Shape).Idx → EReal}
    {w7 W2 : (⟨2, ![32, 16]⟩ : Shape).Idx → EReal} {w8 b2 : (⟨2, ![1, 16]⟩ : Shape).Idx → EReal}
    (h2 : w2 = Wroot) (h3 : w3 = Wrel) (h4 : w4 = b) (h5 : w5 = W1) (h6 : w6 = b1) (h7 : w7 = W2) (h8 : w8 = b2)
    {p : Fin 10000} {r : Fin 100000} (hA : RowEq x0 A p r) (hX : RowEq x1 X p r) (q : Fin 16) :
    Cert.Spec.head (Cert.Spec.layer x0 x1 w2 w3 w4) w5 w6 w7 w8 (ix2 p q)
      = Cert.Spec.head (Cert.Spec.layer A X Wroot Wrel b) W1 b1 W2 b2 (ix2 r q) := by
  subst h2 h3 h4 h5 h6 h7 h8
  exact Cert.Spec.head_rowEq (Cert.Spec.layer_rowEq hA hX _ _ _) _ _ _ _ q

/-- Point t writes back block t of the whole-array function. -/
theorem flushed_eq (V : (c : Dev nD) → (b : Ref sig .tc) → Buf (Elt Ideal) ((c : Thread nD τ).loc b)) (c : Dev nD)
    (t : Fin cfg1.N) :
    (dat1 (F := Ideal) V c).flushed 9 t = ((cfg1.win 9).blk t).view.read (Elt Ideal) (G V c) := by
  show (cfg1.win 9).cut (grid1.coords t) ((dat1 V c).after 9 t) = _
  rw [after1_9]
  unfold out1_9
  rw [View.canon_unit_zero hz]
  simp only [View.ld_unit_zero (S := S10000x32) hz, View.ld_unit_zero (S := S32x64) hz, View.ld_unit_zero (S := S1x64) hz,
    View.ld_unit_zero (S := S64x32) hz, View.ld_unit_zero (S := S1x32) hz, View.ld_unit_zero (S := S32x16) hz,
    View.ld_unit_zero (S := S1x16) hz]
  rw [pay_eq]
  funext j
  obtain ⟨e00, e01, e10, e11, e90, e91, e20, e21, e30, e31, e40, e41, e50, e51, e60, e61, e70, e71, e80, e81⟩ := idx_facts t
  have ht : t.val < 10 := lt_of_lt_of_eq t.isLt N_1
  have hj0 : (j 0).val < 10000 := (j 0).isLt
  have hj1 : (j 1).val < 16 := (j 1).isLt
  have hr : win1_9.index t (0 : Fin 2) * 10000 + (j 0).val < 100000 := by omega
  -- the entry's place in the block and in the array
  have eL : (win1 9).xinj (grid1.coords t) j = ix2 (⟨(j 0).val, hj0⟩ : Fin 10000) (⟨(j 1).val, hj1⟩ : Fin 16) := by
    funext a
    match a with
    | ⟨0, _⟩ => rfl
    | ⟨1, _⟩ => rfl
  have eR : ((cfg1.win 9).blk t).view.emb j
      = ix2 (⟨win1_9.index t (0 : Fin 2) * 10000 + (j 0).val, hr⟩ : Fin 100000) (⟨(j 1).val, hj1⟩ : Fin 16) := by
    funext a; apply Fin.ext
    match a with
    | ⟨0, _⟩ => show win1_9.index t (0 : Fin 2) * 10000 + 1 * (j 0).val = win1_9.index t (0 : Fin 2) * 10000 + (j 0).val; omega
    | ⟨1, _⟩ => show win1_9.index t (1 : Fin 2) * 16 + 1 * (j 1).val = (j 1).val; omega
  -- the row-blocked inputs: row p of the block at point t is row t·10000 + p of the array
  have hA : RowEq (a := 10000) (N := 100000) (K := 32) (iblk1 V c 0 t) (V c main_v25)
      (⟨(j 0).val, hj0⟩ : Fin 10000) (⟨win1_9.index t (0 : Fin 2) * 10000 + (j 0).val, hr⟩ : Fin 100000) := fun k => by
    show V c main_v25 (((cfg1.win 0).blk t).view.emb (ix2 (⟨(j 0).val, hj0⟩ : Fin 10000) k)) = V c main_v25 (ix2 _ k)
    refine congrArg (V c main_v25) ?_
    funext a; apply Fin.ext
    match a with
    | ⟨0, _⟩ => show win1_0.index t (0 : Fin 2) * 10000 + 1 * (j 0).val = win1_9.index t (0 : Fin 2) * 10000 + (j 0).val; omega
    | ⟨1, _⟩ => show win1_0.index t (1 : Fin 2) * 32 + 1 * k.val = k.val; omega
  have hX : RowEq (a := 10000) (N := 100000) (K := 32) (iblk1 V c 1 t) (V c main_v15)
      (⟨(j 0).val, hj0⟩ : Fin 10000) (⟨win1_9.index t (0 : Fin 2) * 10000 + (j 0).val, hr⟩ : Fin 100000) := fun k => by
    show V c main_v15 (((cfg1.win 1).blk t).view.emb (ix2 (⟨(j 0).val, hj0⟩ : Fin 10000) k)) = V c main_v15 (ix2 _ k)
    refine congrArg (V c main_v15) ?_
    funext a; apply Fin.ext
    match a with
    | ⟨0, _⟩ => show win1_1.index t (0 : Fin 2) * 10000 + 1 * (j 0).val = win1_9.index t (0 : Fin 2) * 10000 + (j 0).val; omega
    | ⟨1, _⟩ => show win1_1.index t (1 : Fin 2) * 32 + 1 * k.val = k.val; omega
  -- the weights and bias rows: one block, the whole array
  have h2 : (iblk1 V c 2 t : Vec Ideal S32x64 .f32) = V c main_arg5 := funext fun y => by
    show V c main_arg5 (((cfg1.win 2).blk t).view.emb y) = V c main_arg5 y
    refine congrArg (V c main_arg5) ?_
    funext a; apply Fin.ext
    match a with
    | ⟨0, _⟩ => show win1_2.index t (0 : Fin 2) * 32 + 1 * (y 0).val = (y 0).val; omega
    | ⟨1, _⟩ => show win1_2.index t (1 : Fin 2) * 64 + 1 * (y 1).val = (y 1).val; omega
  have h3 : (iblk1 V c 3 t : Vec Ideal S32x64 .f32) = V c main_arg6 := funext fun y => by
    show V c main_arg6 (((cfg1.win 3).blk t).view.emb y) = V c main_arg6 y
    refine congrArg (V c main_arg6) ?_
    funext a; apply Fin.ext
    match a with
    | ⟨0, _⟩ => show win1_3.index t (0 : Fin 2) * 32 + 1 * (y 0).val = (y 0).val; omega
    | ⟨1, _⟩ => show win1_3.index t (1 : Fin 2) * 64 + 1 * (y 1).val = (y 1).val; omega
  have h4 : (iblk1 V c 4 t : Vec Ideal S1x64 .f32) = V c main_v26 := funext fun y => by
    show V c main_v26 (((cfg1.win 4).blk t).view.emb y) = V c main_v26 y
    refine congrArg (V c main_v26) ?_
    funext a; apply Fin.ext
    match a with
    | ⟨0, _⟩ => show win1_4.index t (0 : Fin 2) * 1 + 1 * (y 0).val = (y 0).val; omega
    | ⟨1, _⟩ => show win1_4.index t (1 : Fin 2) * 64 + 1 * (y 1).val = (y 1).val; omega
  have h5 : (iblk1 V c 5 t : Vec Ideal S64x32 .f32) = V c main_arg8 := funext fun y => by
    show V c main_arg8 (((cfg1.win 5).blk t).view.emb y) = V c main_arg8 y
    refine congrArg (V c main_arg8) ?_
    funext a; apply Fin.ext
    match a with
    | ⟨0, _⟩ => show win1_5.index t (0 : Fin 2) * 64 + 1 * (y 0).val = (y 0).val; omega
    | ⟨1, _⟩ => show win1_5.index t (1 : Fin 2) * 32 + 1 * (y 1).val = (y 1).val; omega
  have h6 : (iblk1 V c 6 t : Vec Ideal S1x32 .f32) = V c main_v27 := funext fun y => by
    show V c main_v27 (((cfg1.win 6).blk t).view.emb y) = V c main_v27 y
    refine congrArg (V c main_v27) ?_
    funext a; apply Fin.ext
    match a with
    | ⟨0, _⟩ => show win1_6.index t (0 : Fin 2) * 1 + 1 * (y 0).val = (y 0).val; omega
    | ⟨1, _⟩ => show win1_6.index t (1 : Fin 2) * 32 + 1 * (y 1).val = (y 1).val; omega
  have h7 : (iblk1 V c 7 t : Vec Ideal S32x16 .f32) = V c main_arg10 := funext fun y => by
    show V c main_arg10 (((cfg1.win 7).blk t).view.emb y) = V c main_arg10 y
    refine congrArg (V c main_arg10) ?_
    funext a; apply Fin.ext
    match a with
    | ⟨0, _⟩ => show win1_7.index t (0 : Fin 2) * 32 + 1 * (y 0).val = (y 0).val; omega
    | ⟨1, _⟩ => show win1_7.index t (1 : Fin 2) * 16 + 1 * (y 1).val = (y 1).val; omega
  have h8 : (iblk1 V c 8 t : Vec Ideal S1x16 .f32) = V c main_v28 := funext fun y => by
    show V c main_v28 (((cfg1.win 8).blk t).view.emb y) = V c main_v28 y
    refine congrArg (V c main_v28) ?_
    funext a; apply Fin.ext
    match a with
    | ⟨0, _⟩ => show win1_8.index t (0 : Fin 2) * 1 + 1 * (y 0).val = (y 0).val; omega
    | ⟨1, _⟩ => show win1_8.index t (1 : Fin 2) * 16 + 1 * (y 1).val = (y 1).val; omega
  show Cert.Spec.head (Cert.Spec.layer (iblk1 V c 0 t) (iblk1 V c 1 t) (iblk1 V c 2 t) (iblk1 V c 3 t) (iblk1 V c 4 t))
      (iblk1 V c 5 t) (iblk1 V c 6 t) (iblk1 V c 7 t) (iblk1 V c 8 t) ((win1 9).xinj (grid1.coords t) j)
    = G V c (((cfg1.win 9).blk t).view.emb j)
  rw [eL, eR]
  exact band_entry h2 h3 h4 h5 h6 h7 h8 hA hX _

/-! ## The blocks cover the array -/

/-- An index of the array is in point t's block exactly when each coordinate is in the block's range on its axis. -/
theorem mem_blk (t : Fin cfg1.N) (i : S100000x16.Idx) :
    i ∈ ((cfg1.win 9).blk t).view.set ↔ ∀ a : Fin 2, win1_9.index t a * S10000x16.size a ≤ (i a).val
      ∧ (i a).val < win1_9.index t a * S10000x16.size a + S10000x16.size a := by
  show i ∈ ((View.whole main_v29).slice (win1_9.rect t)).set ↔ _
  rw [View.set_slice_whole, Rect.mem_set_unit]
  exact Iff.rfl

/-- Every index of the array lies in the block of the point numbered by its row over 10000, and every point writes
    its block back. -/
theorem cover (i : S100000x16.Idx) :
    ∃ t : Fin cfg1.N, (cfg1.win 9).flush t = true ∧ i ∈ ((cfg1.win 9).blk t).view.set := by
  have hi0 : (i 0).val < 100000 := (i 0).isLt
  have hi1 : (i 1).val < 16 := (i 1).isLt
  have hN : (i 0).val / 10000 < cfg1.N := lt_of_lt_of_eq (show (i 0).val / 10000 < 10 by omega) N_1.symm
  obtain ⟨-, -, -, -, e90, e91, -⟩ := idx_facts ⟨(i 0).val / 10000, hN⟩
  have e90' : win1_9.index ⟨(i 0).val / 10000, hN⟩ (0 : Fin 2) = (i 0).val / 10000 := e90
  refine ⟨⟨(i 0).val / 10000, hN⟩, flush1_9 _, ?_⟩
  rw [mem_blk]
  intro a
  match a with
  | ⟨0, _⟩ =>
    show win1_9.index ⟨(i 0).val / 10000, hN⟩ (0 : Fin 2) * 10000 ≤ (i 0).val
      ∧ (i 0).val < win1_9.index ⟨(i 0).val / 10000, hN⟩ (0 : Fin 2) * 10000 + 10000
    omega
  | ⟨1, _⟩ =>
    show win1_9.index ⟨(i 0).val / 10000, hN⟩ (1 : Fin 2) * 16 ≤ (i 1).val
      ∧ (i 1).val < win1_9.index ⟨(i 0).val / 10000, hN⟩ (1 : Fin 2) * 16 + 16
    omega

/-! ## The array after the region -/

/-- Whatever the buffers hold when the region is entered, its output array ends as the head of the second layer of
    the arrays its input windows stage: every point writes the block of that function its rows name, and the blocks
    cover the array. -/
theorem array (V : (c : Dev nD) → (b : Ref sig .tc) → Buf (Elt Ideal) ((c : Thread nD τ).loc b)) (c : Dev nD) :
    (dat1 (F := Ideal) V c).arrAt 9 cfg1.N
      = Cert.Spec.head (Cert.Spec.layer (V c main_v25) (V c main_v15) (V c main_arg5) (V c main_arg6) (V c main_v26))
          (V c main_arg8) (V c main_v27) (V c main_arg10) (V c main_v28) :=
  (dat1 V c).arrAt_eq_of_cover 9 (G V c) (fun t _ => flushed_eq V c t) cover

end Cert.KernelIdeal.Region1

end
-- ==== Proof.KernelValue.lean ====
/-
  The idealized kernel's result as one function of its arguments.

  Between the launch and the first region the host forms the neighbour sums of the node features: row 0 of the edge
  list gives each edge's source row (a negative number wrapped around by the node count), row 1 its target row; the
  source rows are gathered and added into the target rows of a zero array (`agg16`). The first region turns these and
  the node features into the first layer's output. The host then forms the neighbour sums of that output (`agg32`,
  the same edge rows), reshapes three bias vectors into rows, and the second region produces the result. Reading each
  buffer a region stages through the host operations before it, and each region's output array as the row-operation
  function of what it staged, gives the result as
      head (layer (agg32 h E) h W_root2 W_rel2 b2) fc1_w fc1_b fc2_w fc2_b,   h = layer (agg16 x E) x W_root1 W_rel1 b1.
-/
import proofs.«105941_j71296457114107_1_alg».proof.Proof.Spec
import proofs.«105941_j71296457114107_1_alg».proof.Proof.Gen.KernelIdeal.Frame
import Idealize.ShloMosaic.Lib.StableHlo.Run
import Idealize.ShloMosaic.PureOps.Ideal

set_option maxRecDepth 16384

noncomputable section

namespace Cert.KernelIdeal.KernelValue

open Idealize.ShloMosaic Idealize.ShloMosaic.TcCoe Idealize.SL.Sem Idealize.ShloMosaic.StableHlo
open Cert.KernelIdeal Cert.KernelIdeal.Gen

/-! ## The host terms -/

/-- Row `a` of the edge list as a vector of 1600000 row numbers. -/
def edgeRow0 (E : (⟨S2x1600000, .i32⟩ : BufTy).Contents (Elt Ideal)) : (⟨S1600000, .i32⟩ : BufTy).Contents (Elt Ideal) :=
  shapeCast S1600000 (extractStridedSlice S1x1600000 ![0, 0] E slices_S2x1600000_S1x1600000_0_0) shapeCasts_S1x1600000_S1600000

def edgeRow1 (E : (⟨S2x1600000, .i32⟩ : BufTy).Contents (Elt Ideal)) : (⟨S1600000, .i32⟩ : BufTy).Contents (Elt Ideal) :=
  shapeCast S1600000 (extractStridedSlice S1x1600000 ![1, 0] E slices_S2x1600000_S1x1600000_1_0) shapeCasts_S1x1600000_S1600000

/-- Each edge's source row: row 0 of the edge list, a negative number wrapped around by the node count; laid out
    [1600000, 1]. -/
def srcRows (E : (⟨S2x1600000, .i32⟩ : BufTy).Contents (Elt Ideal)) : (⟨S1600000x1, .i32⟩ : BufTy).Contents (Elt Ideal) :=
  broadcastInDim S1600000x1 ![0] bcast_S1600000_S1600000x1_0
    (select (cmpi .slt (edgeRow0 E) (broadcastInDim S1600000 ![] bcast_S_S1600000 (constantI S_ 32 0#32)))
      (addi (edgeRow0 E) (broadcastInDim S1600000 ![] bcast_S_S1600000 (constantI S_ 32 100000#32)))
      (edgeRow0 E))

/-- Each edge's target row: row 1 of the edge list, laid out [1600000, 1]. -/
def dstRows (E : (⟨S2x1600000, .i32⟩ : BufTy).Contents (Elt Ideal)) : (⟨S1600000x1, .i32⟩ : BufTy).Contents (Elt Ideal) :=
  broadcastInDim S1600000x1 ![0] bcast_S1600000_S1600000x1_0 (edgeRow1 E)

/-- The neighbour sums of a 16-wide feature array: the source rows gathered, added into the target rows of zero. -/
def agg16 (X : (⟨S100000x16, .f32⟩ : BufTy).Contents (Elt Ideal)) (E : (⟨S2x1600000, .i32⟩ : BufTy).Contents (Elt Ideal)) :
    (⟨S100000x16, .f32⟩ : BufTy).Contents (Elt Ideal) :=
  Host.scatterAdd (F := Ideal) (φ := .f32) scatter_S100000x16_S1600000x1_S1600000x16_1_0_0_1
    (broadcastInDim S100000x16 ![] bcast_S_S100000x16 (constant (F := Ideal) S_ .f32 0x00000000#32)) (dstRows E)
    (Host.gather gather_S100000x16_S1600000x1_S1600000x16_1_0_n_n_0_1_116 X (srcRows E))

/-- The neighbour sums of a 32-wide feature array. -/
def agg32 (H : (⟨S100000x32, .f32⟩ : BufTy).Contents (Elt Ideal)) (E : (⟨S2x1600000, .i32⟩ : BufTy).Contents (Elt Ideal)) :
    (⟨S100000x32, .f32⟩ : BufTy).Contents (Elt Ideal) :=
  Host.scatterAdd (F := Ideal) (φ := .f32) scatter_S100000x32_S1600000x1_S1600000x32_1_0_0_1
    (broadcastInDim S100000x32 ![] bcast_S_S100000x32 (constant (F := Ideal) S_ .f32 0x00000000#32)) (dstRows E)
    (Host.gather gather_S100000x32_S1600000x1_S1600000x32_1_0_n_n_0_1_132 H (srcRows E))

variable (m : (ℓ : Loc nD τ sig) → Buf (Elt Ideal) ℓ) (ρ : Dev nD → PrngReg)

/-! ## What the first region stages, read through the first stretch of host operations -/

theorem V1_v13 (c : Dev nD) : V1 m ρ c main_v13 = agg16 (m ((c : Thread nD τ).loc main_arg0)) (m ((c : Thread nD τ).loc main_arg1)) := by
  show StableHlo.after hostOps0 (W0 m ρ c) (Proc.devRef .tc main_v13) = _
  after_results; rfl

theorem V1_arg0 (c : Dev nD) : V1 m ρ c main_arg0 = (m ((c : Thread nD τ).loc main_arg0)) := by
  show StableHlo.after hostOps0 (W0 m ρ c) (Proc.devRef .tc main_arg0) = _
  after_results

theorem V1_arg2 (c : Dev nD) : V1 m ρ c main_arg2 = (m ((c : Thread nD τ).loc main_arg2)) := by
  show StableHlo.after hostOps0 (W0 m ρ c) (Proc.devRef .tc main_arg2) = _
  after_results

theorem V1_arg3 (c : Dev nD) : V1 m ρ c main_arg3 = (m ((c : Thread nD τ).loc main_arg3)) := by
  show StableHlo.after hostOps0 (W0 m ρ c) (Proc.devRef .tc main_arg3) = _
  after_results

theorem V1_v14 (c : Dev nD) : V1 m ρ c main_v14 = shapeCast S1x32 (m ((c : Thread nD τ).loc main_arg4)) shapeCasts_S32_S1x32 := by
  show StableHlo.after hostOps0 (W0 m ρ c) (Proc.devRef .tc main_v14) = _
  after_results; rfl

/-! ## The buffers the first region does not write, at its exit: as the first stretch left them -/

theorem W2_v1 (c : Dev nD) : W2 m ρ c (Proc.devRef .tc main_v1) = edgeRow0 (m ((c : Thread nD τ).loc main_arg1)) := by
  rw [W2_of_ne m ρ c main_v1 (by decide)]
  show StableHlo.after hostOps0 (W0 m ρ c) (Proc.devRef .tc main_v1) = _
  after_results; rfl

theorem W2_v3 (c : Dev nD) : W2 m ρ c (Proc.devRef .tc main_v3) = edgeRow1 (m ((c : Thread nD τ).loc main_arg1)) := by
  rw [W2_of_ne m ρ c main_v3 (by decide)]
  show StableHlo.after hostOps0 (W0 m ρ c) (Proc.devRef .tc main_v3) = _
  after_results; rfl

theorem W2_arg5 (c : Dev nD) : W2 m ρ c (Proc.devRef .tc main_arg5) = (m ((c : Thread nD τ).loc main_arg5)) := by
  rw [W2_of_ne m ρ c main_arg5 (by decide)]
  show StableHlo.after hostOps0 (W0 m ρ c) (Proc.devRef .tc main_arg5) = _
  after_results

theorem W2_arg6 (c : Dev nD) : W2 m ρ c (Proc.devRef .tc main_arg6) = (m ((c : Thread nD τ).loc main_arg6)) := by
  rw [W2_of_ne m ρ c main_arg6 (by decide)]
  show StableHlo.after hostOps0 (W0 m ρ c) (Proc.devRef .tc main_arg6) = _
  after_results

theorem W2_arg7 (c : Dev nD) : W2 m ρ c (Proc.devRef .tc main_arg7) = (m ((c : Thread nD τ).loc main_arg7)) := by
  rw [W2_of_ne m ρ c main_arg7 (by decide)]
  show StableHlo.after hostOps0 (W0 m ρ c) (Proc.devRef .tc main_arg7) = _
  after_results

theorem W2_arg8 (c : Dev nD) : W2 m ρ c (Proc.devRef .tc main_arg8) = (m ((c : Thread nD τ).loc main_arg8)) := by
  rw [W2_of_ne m ρ c main_arg8 (by decide)]
  show StableHlo.after hostOps0 (W0 m ρ c) (Proc.devRef .tc main_arg8) = _
  after_results

theorem W2_arg9 (c : Dev nD) : W2 m ρ c (Proc.devRef .tc main_arg9) = (m ((c : Thread nD τ).loc main_arg9)) := by
  rw [W2_of_ne m ρ c main_arg9 (by decide)]
  show StableHlo.after hostOps0 (W0 m ρ c) (Proc.devRef .tc main_arg9) = _
  after_results

theorem W2_arg10 (c : Dev nD) : W2 m ρ c (Proc.devRef .tc main_arg10) = (m ((c : Thread nD τ).loc main_arg10)) := by
  rw [W2_of_ne m ρ c main_arg10 (by decide)]
  show StableHlo.after hostOps0 (W0 m ρ c) (Proc.devRef .tc main_arg10) = _
  after_results

theorem W2_arg11 (c : Dev nD) : W2 m ρ c (Proc.devRef .tc main_arg11) = (m ((c : Thread nD τ).loc main_arg11)) := by
  rw [W2_of_ne m ρ c main_arg11 (by decide)]
  show StableHlo.after hostOps0 (W0 m ρ c) (Proc.devRef .tc main_arg11) = _
  after_results

/-! ## The result as one function of the arguments -/

/-- The first layer's output. -/
def hidden (x : (⟨S100000x16, .f32⟩ : BufTy).Contents (Elt Ideal)) (E : (⟨S2x1600000, .i32⟩ : BufTy).Contents (Elt Ideal))
    (wroot1 wrel1 : (⟨S16x32, .f32⟩ : BufTy).Contents (Elt Ideal)) (b1 : (⟨S32, .f32⟩ : BufTy).Contents (Elt Ideal)) :
    (⟨S100000x32, .f32⟩ : BufTy).Contents (Elt Ideal) :=
  Cert.Spec.layer (agg16 x E) x wroot1 wrel1 (shapeCast S1x32 b1 shapeCasts_S32_S1x32)

/-- The kernel's result. -/
def result (x : (⟨S100000x16, .f32⟩ : BufTy).Contents (Elt Ideal)) (E : (⟨S2x1600000, .i32⟩ : BufTy).Contents (Elt Ideal))
    (wroot1 wrel1 : (⟨S16x32, .f32⟩ : BufTy).Contents (Elt Ideal)) (b1 : (⟨S32, .f32⟩ : BufTy).Contents (Elt Ideal))
    (wroot2 wrel2 : (⟨S32x64, .f32⟩ : BufTy).Contents (Elt Ideal)) (b2 : (⟨S64, .f32⟩ : BufTy).Contents (Elt Ideal))
    (fc1w : (⟨S64x32, .f32⟩ : BufTy).Contents (Elt Ideal)) (fc1b : (⟨S32, .f32⟩ : BufTy).Contents (Elt Ideal))
    (fc2w : (⟨S32x16, .f32⟩ : BufTy).Contents (Elt Ideal)) (fc2b : (⟨S16, .f32⟩ : BufTy).Contents (Elt Ideal)) :
    (⟨S100000x16, .f32⟩ : BufTy).Contents (Elt Ideal) :=
  Cert.Spec.head
    (Cert.Spec.layer (agg32 (hidden x E wroot1 wrel1 b1) E) (hidden x E wroot1 wrel1 b1) wroot2 wrel2
      (shapeCast S1x64 b2 shapeCasts_S64_S1x64))
    fc1w (shapeCast S1x32 fc1b shapeCasts_S32_S1x32) fc2w (shapeCast S1x16 fc2b shapeCasts_S16_S1x16)

section Regions

/- Each region's output array is the row-operation function of the arrays it staged, whatever the buffers held at its
   entry: the two facts about the regions this module builds on. -/
variable
  (hR0 : ∀ (V : (c : Dev nD) → (b : Ref sig .tc) → Buf (Elt Ideal) ((c : Thread nD τ).loc b)) (c : Dev nD),
    (dat0 (F := Ideal) V c).arrAt 5 cfg0.N
      = Cert.Spec.layer (V c main_v13) (V c main_arg0) (V c main_arg2) (V c main_arg3) (V c main_v14))
  (hR1 : ∀ (V : (c : Dev nD) → (b : Ref sig .tc) → Buf (Elt Ideal) ((c : Thread nD τ).loc b)) (c : Dev nD),
    (dat1 (F := Ideal) V c).arrAt 9 cfg1.N
      = Cert.Spec.head (Cert.Spec.layer (V c main_v25) (V c main_v15) (V c main_arg5) (V c main_arg6) (V c main_v26))
          (V c main_arg8) (V c main_v27) (V c main_arg10) (V c main_v28))

include hR0 in
/-- At the first region's exit its output array holds the first layer's output. -/
theorem W2_v15 (c : Dev nD) :
    W2 m ρ c (Proc.devRef .tc main_v15) = hidden (m ((c : Thread nD τ).loc main_arg0)) (m ((c : Thread nD τ).loc main_arg1)) (m ((c : Thread nD τ).loc main_arg2)) (m ((c : Thread nD τ).loc main_arg3)) (m ((c : Thread nD τ).loc main_arg4)) := by
  rw [show W2 m ρ c (Proc.devRef .tc main_v15) = (dat0 (V1 m ρ) c).arrAt 5 cfg0.N from W2_arr m ρ c 5,
    hR0 (V1 m ρ) c, V1_v13, V1_arg0, V1_arg2, V1_arg3, V1_v14]
  rfl

/-! ## What the second region stages, read through the second stretch -/

theorem V3_v25 (c : Dev nD) : V3 m ρ c main_v25 = agg32 (W2 m ρ c (Proc.devRef .tc main_v15)) (m ((c : Thread nD τ).loc main_arg1)) := by
  show StableHlo.after hostOps1 (W2 m ρ c) (Proc.devRef .tc main_v25) = _
  after_results
  rw [W2_v1, W2_v3]; rfl

theorem V3_v15 (c : Dev nD) : V3 m ρ c main_v15 = W2 m ρ c (Proc.devRef .tc main_v15) := by
  show StableHlo.after hostOps1 (W2 m ρ c) (Proc.devRef .tc main_v15) = _
  after_results

theorem V3_arg5 (c : Dev nD) : V3 m ρ c main_arg5 = (m ((c : Thread nD τ).loc main_arg5)) := by
  show StableHlo.after hostOps1 (W2 m ρ c) (Proc.devRef .tc main_arg5) = _
  after_results
  exact W2_arg5 m ρ c

theorem V3_arg6 (c : Dev nD) : V3 m ρ c main_arg6 = (m ((c : Thread nD τ).loc main_arg6)) := by
  show StableHlo.after hostOps1 (W2 m ρ c) (Proc.devRef .tc main_arg6) = _
  after_results
  exact W2_arg6 m ρ c

theorem V3_arg8 (c : Dev nD) : V3 m ρ c main_arg8 = (m ((c : Thread nD τ).loc main_arg8)) := by
  show StableHlo.after hostOps1 (W2 m ρ c) (Proc.devRef .tc main_arg8) = _
  after_results
  exact W2_arg8 m ρ c

theorem V3_arg10 (c : Dev nD) : V3 m ρ c main_arg10 = (m ((c : Thread nD τ).loc main_arg10)) := by
  show StableHlo.after hostOps1 (W2 m ρ c) (Proc.devRef .tc main_arg10) = _
  after_results
  exact W2_arg10 m ρ c

theorem V3_v26 (c : Dev nD) : V3 m ρ c main_v26 = shapeCast S1x64 (m ((c : Thread nD τ).loc main_arg7)) shapeCasts_S64_S1x64 := by
  show StableHlo.after hostOps1 (W2 m ρ c) (Proc.devRef .tc main_v26) = _
  after_results
  rw [W2_arg7]; rfl

theorem V3_v27 (c : Dev nD) : V3 m ρ c main_v27 = shapeCast S1x32 (m ((c : Thread nD τ).loc main_arg9)) shapeCasts_S32_S1x32 := by
  show StableHlo.after hostOps1 (W2 m ρ c) (Proc.devRef .tc main_v27) = _
  after_results
  rw [W2_arg9]; rfl

theorem V3_v28 (c : Dev nD) : V3 m ρ c main_v28 = shapeCast S1x16 (m ((c : Thread nD τ).loc main_arg11)) shapeCasts_S16_S1x16 := by
  show StableHlo.after hostOps1 (W2 m ρ c) (Proc.devRef .tc main_v28) = _
  after_results
  rw [W2_arg11]; rfl

include hR0 hR1 in
/-- The result buffer's final contents: the kernel's result function of the argument arrays as launched. -/
theorem result_eq (c : Dev nD) :
    W4 m ρ c (Proc.devRef .tc main_v29)
      = result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  rw [show W4 m ρ c (Proc.devRef .tc main_v29) = (dat1 (V3 m ρ) c).arrAt 9 cfg1.N from W4_arr m ρ c 9,
    hR1 (V3 m ρ) c, V3_v25, V3_v15, V3_arg5, V3_arg6, V3_v26, V3_arg8, V3_v27, V3_arg10, V3_v28, W2_v15 m ρ hR0]
  rfl

end Regions

end Cert.KernelIdeal.KernelValue

end
-- ==== Proof.RefValue.lean ====
/-
  The reference program's result as row operations on matrices of extended reals.

  The reference computes each graph-convolution layer as  relu((A · W_rel + b) + X · W_root): the bias row is added to
  the neighbours' product before the nodes' own product is. Entry by entry this is  relu((A · W_rel + X · W_root) + b),
  the order in which `Cert.Spec.layer` writes it, because addition of extended reals is commutative and associative,
  infinities included; nothing is assumed finite. The head is  relu(H · W1 + b1) · W2 + b2  exactly as
  `Cert.Spec.head` writes it.

  Three facts, generic in the sizes, carry the reading:

    refLayer_eq    relu((A · W_rel + b) + X · W_root)  =  Spec.layer A X W_root W_rel b
    denseRelu_eq   relu(H · W + b)                     =  reluRow (matProd H W) b
    dense_eq       H · W + b                           =  addRow (matProd H W) b

  each for the host's product, the host's broadcast of a row over the rows, and the host's maximum with the zero
  constant broadcast to the whole shape. The neighbour sums (a gather followed by an accumulating scatter) are kept as
  they are: the first layer's is the generated stage itself, the second layer's is `agg32`, the same two operations with
  the feature array as a variable.
-/
import proofs.«105941_j71296457114107_1_alg».proof.Proof.Spec
import proofs.«105941_j71296457114107_1_alg».proof.Proof.Gen.ReferenceIdeal.Read
import Idealize.ShloMosaic.Lib.Pipeline.Value
import Idealize.ShloMosaic.Lib.ValueIdx
import Idealize.ShloMosaic.PureOps.Ideal.Laws

noncomputable section

namespace Cert.ReferenceIdeal.RefValue

open Idealize.ShloMosaic Idealize.ShloMosaic.TcCoe Idealize.SL.Sem Idealize.ShloMosaic.ValueIdx
open Cert.ReferenceIdeal Cert.ReferenceIdeal.Gen Cert.ReferenceIdeal.Read Cert.RowOps Cert.RowBand

/-! ## Generic in the sizes -/

/-- The product of an [N, K] by a [K, M] matrix plus a row broadcast over the rows: H · W + b. -/
theorem dense_eq {N K M : ℕ}
    (d : DotDims ⟨2, ![N, K]⟩ ⟨2, ![K, M]⟩ ⟨2, ![N, M]⟩) (hr : d.contr.rank = 1) (hs : d.contr.size ⟨0, by omega⟩ = K)
    (hl0 : ∀ (i : (⟨2, ![N, M]⟩ : Shape).Idx) (q : d.contr.Idx), (d.lhsIdx i q 0).val = (i 0).val)
    (hl1 : ∀ (i : (⟨2, ![N, M]⟩ : Shape).Idx) (q : d.contr.Idx), (d.lhsIdx i q 1).val = (q ⟨0, by omega⟩).val)
    (hr0 : ∀ (i : (⟨2, ![N, M]⟩ : Shape).Idx) (q : d.contr.Idx), (d.rhsIdx i q 0).val = (q ⟨0, by omega⟩).val)
    (hr1 : ∀ (i : (⟨2, ![N, M]⟩ : Shape).Idx) (q : d.contr.Idx), (d.rhsIdx i q 1).val = (i 1).val)
    (hb : (⟨2, ![1, M]⟩ : Shape).BroadcastsInDim ⟨2, ![N, M]⟩ ![0, 1])
    (H : FVec Ideal ⟨2, ![N, K]⟩ .f32) (W : FVec Ideal ⟨2, ![K, M]⟩ .f32) (b : FVec Ideal ⟨2, ![1, M]⟩ .f32) :
    addf (F := Ideal) (s := ⟨2, ![N, M]⟩) (φ := .f32) (Host.dotGeneral d none H W)
        (broadcastInDim ⟨2, ![N, M]⟩ ![0, 1] hb b)
      = addRow (matProd H W) b := by
  rw [show Host.dotGeneral d none H W = matProd H W from
        dotGeneral_eq_matProd d hr hs hl0 hl1 hr0 hr1 none .single H W]
  exact addf_bcastRow hb _ b

/-- The same followed by the maximum with zero: relu(H · W + b). -/
theorem denseRelu_eq {N K M : ℕ}
    (d : DotDims ⟨2, ![N, K]⟩ ⟨2, ![K, M]⟩ ⟨2, ![N, M]⟩) (hr : d.contr.rank = 1) (hs : d.contr.size ⟨0, by omega⟩ = K)
    (hl0 : ∀ (i : (⟨2, ![N, M]⟩ : Shape).Idx) (q : d.contr.Idx), (d.lhsIdx i q 0).val = (i 0).val)
    (hl1 : ∀ (i : (⟨2, ![N, M]⟩ : Shape).Idx) (q : d.contr.Idx), (d.lhsIdx i q 1).val = (q ⟨0, by omega⟩).val)
    (hr0 : ∀ (i : (⟨2, ![N, M]⟩ : Shape).Idx) (q : d.contr.Idx), (d.rhsIdx i q 0).val = (q ⟨0, by omega⟩).val)
    (hr1 : ∀ (i : (⟨2, ![N, M]⟩ : Shape).Idx) (q : d.contr.Idx), (d.rhsIdx i q 1).val = (i 1).val)
    (hb : (⟨2, ![1, M]⟩ : Shape).BroadcastsInDim ⟨2, ![N, M]⟩ ![0, 1])
    (hz : (⟨0, ![]⟩ : Shape).BroadcastsInDim ⟨2, ![N, M]⟩ ![])
    (H : FVec Ideal ⟨2, ![N, K]⟩ .f32) (W : FVec Ideal ⟨2, ![K, M]⟩ .f32) (b : FVec Ideal ⟨2, ![1, M]⟩ .f32) :
    maximumf (F := Ideal) (s := ⟨2, ![N, M]⟩) (φ := .f32)
        (addf (F := Ideal) (s := ⟨2, ![N, M]⟩) (φ := .f32) (Host.dotGeneral d none H W)
          (broadcastInDim ⟨2, ![N, M]⟩ ![0, 1] hb b))
        (broadcastInDim ⟨2, ![N, M]⟩ ![] hz (constant (F := Ideal) ⟨0, ![]⟩ .f32 0x00000000#32))
      = reluRow (matProd H W) b := by
  rw [dense_eq d hr hs hl0 hl1 hr0 hr1 hb H W b]
  exact maximumf_bcastZero hz _ b

/-- A layer with its three summands taken in the reference's order, (A · W_rel + b) + X · W_root, is the layer with the
    bias row added last: at every entry (m + b) + n = (m + n) + b. -/
theorem refLayer_eq {N K M : ℕ}
    (d : DotDims ⟨2, ![N, K]⟩ ⟨2, ![K, M]⟩ ⟨2, ![N, M]⟩) (hr : d.contr.rank = 1) (hs : d.contr.size ⟨0, by omega⟩ = K)
    (hl0 : ∀ (i : (⟨2, ![N, M]⟩ : Shape).Idx) (q : d.contr.Idx), (d.lhsIdx i q 0).val = (i 0).val)
    (hl1 : ∀ (i : (⟨2, ![N, M]⟩ : Shape).Idx) (q : d.contr.Idx), (d.lhsIdx i q 1).val = (q ⟨0, by omega⟩).val)
    (hr0 : ∀ (i : (⟨2, ![N, M]⟩ : Shape).Idx) (q : d.contr.Idx), (d.rhsIdx i q 0).val = (q ⟨0, by omega⟩).val)
    (hr1 : ∀ (i : (⟨2, ![N, M]⟩ : Shape).Idx) (q : d.contr.Idx), (d.rhsIdx i q 1).val = (i 1).val)
    (hb : (⟨2, ![1, M]⟩ : Shape).BroadcastsInDim ⟨2, ![N, M]⟩ ![0, 1])
    (hz : (⟨0, ![]⟩ : Shape).BroadcastsInDim ⟨2, ![N, M]⟩ ![])
    (A X : FVec Ideal ⟨2, ![N, K]⟩ .f32) (Wroot Wrel : FVec Ideal ⟨2, ![K, M]⟩ .f32)
    (b : FVec Ideal ⟨2, ![1, M]⟩ .f32) :
    maximumf (F := Ideal) (s := ⟨2, ![N, M]⟩) (φ := .f32)
        (addf (F := Ideal) (s := ⟨2, ![N, M]⟩) (φ := .f32)
          (addf (F := Ideal) (s := ⟨2, ![N, M]⟩) (φ := .f32) (Host.dotGeneral d none A Wrel)
            (broadcastInDim ⟨2, ![N, M]⟩ ![0, 1] hb b))
          (Host.dotGeneral d none X Wroot))
        (broadcastInDim ⟨2, ![N, M]⟩ ![] hz (constant (F := Ideal) ⟨0, ![]⟩ .f32 0x00000000#32))
      = Cert.Spec.layer A X Wroot Wrel b := by
  rw [dense_eq d hr hs hl0 hl1 hr0 hr1 hb A Wrel b,
      show Host.dotGeneral d none X Wroot = matProd X Wroot from
        dotGeneral_eq_matProd d hr hs hl0 hl1 hr0 hr1 none .single X Wroot]
  have h : addf (F := Ideal) (s := ⟨2, ![N, M]⟩) (φ := .f32) (addRow (matProd A Wrel) b) (matProd X Wroot)
      = addRow (fun i => matProd A Wrel i + matProd X Wroot i) b :=
    addRow_add_comm (matProd A Wrel) (matProd X Wroot) b
  rw [h]
  exact maximumf_bcastZero hz _ b

/-! ## The reference's stages -/

/-- The neighbours' rows of a 32-wide feature array summed into each node: the reference's gather and scatter-add with
    the feature array as a variable. -/
def agg32 (H : (⟨S100000x32, .f32⟩ : BufTy).Contents (Elt Ideal)) (E : (⟨S2x1600000, .i32⟩ : BufTy).Contents (Elt Ideal)) :
    (⟨S100000x32, .f32⟩ : BufTy).Contents (Elt Ideal) :=
  Host.scatterAdd (F := Ideal) (φ := .f32) scatter_S100000x32_S1600000x1_S1600000x32_1_0_0_1 (val_main_v32 (F := Ideal))
    (val_main_v33 (F := Ideal) E)
    (Host.gather gather_S100000x32_S1600000x1_S1600000x32_1_0_n_n_0_1_132 H (val_main_v30 (F := Ideal) E))

/-- The first layer's output as the reference computes it. -/
def h1 (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) :
    (⟨S100000x32, .f32⟩ : BufTy).Contents (Elt Ideal) :=
  Cert.Spec.layer (val_main_v13 (F := Ideal) x0 x1) x0 x2 x3 (val_main_v15 (F := Ideal) x4)

/-- The first layer: the neighbours' sum times W_rel1, plus the bias row, plus the features times W_root1, cut off at zero. -/
theorem v20_eq (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) :
    val_main_v20 (F := Ideal) x0 x1 x2 x3 x4 = h1 x0 x1 x2 x3 x4 := by
  unfold val_main_v20 val_main_v19 val_main_v17 val_main_v18 val_main_v14 val_main_v16 val_main_call0_v0
    val_main_call0_cst h1
  exact refLayer_eq dot_S100000x16_S16x32_S100000x32_1_0_0_1_n_n rfl rfl lhs_main_v14_0 lhs_main_v14_1
    rhs_main_v14_0 rhs_main_v14_1 bcast_S1x32_S100000x32_0_1 bcast_S_S100000x32
    (val_main_v13 (F := Ideal) x0 x1) x0 x2 x3 (val_main_v15 (F := Ideal) x4)

/-- The second layer's neighbour sum is `agg32` of the first layer's output. -/
theorem v34_eq (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) :
    val_main_v34 (F := Ideal) x0 x1 x2 x3 x4 = agg32 (val_main_v20 (F := Ideal) x0 x1 x2 x3 x4) x1 := by
  unfold val_main_v34 val_main_v31 agg32
  rfl

/-- The second layer, on the first layer's output and its neighbour sum. -/
theorem v41_eq (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) (x5 x6 : (⟨S32x64, .f32⟩ : BufTy).Contents (Elt Ideal)) (x7 : (⟨S64, .f32⟩ : BufTy).Contents (Elt Ideal)) :
    val_main_v41 (F := Ideal) x0 x1 x2 x3 x4 x5 x6 x7
      = Cert.Spec.layer (val_main_v34 (F := Ideal) x0 x1 x2 x3 x4) (val_main_v20 (F := Ideal) x0 x1 x2 x3 x4) x5 x6 (val_main_v36 (F := Ideal) x7) := by
  unfold val_main_v41 val_main_v40 val_main_v38 val_main_v39 val_main_v35 val_main_v37 val_main_call1_v0
    val_main_call1_cst
  exact refLayer_eq dot_S100000x32_S32x64_S100000x64_1_0_0_1_n_n rfl rfl lhs_main_v35_0 lhs_main_v35_1
    rhs_main_v35_0 rhs_main_v35_1 bcast_S1x64_S100000x64_0_1 bcast_S_S100000x64
    (val_main_v34 (F := Ideal) x0 x1 x2 x3 x4) (val_main_v20 (F := Ideal) x0 x1 x2 x3 x4) x5 x6 (val_main_v36 (F := Ideal) x7)

/-- The head's hidden layer: relu(H · fc1_w + fc1_b) on the second layer's output H. -/
theorem v46_eq (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) (x5 x6 : (⟨S32x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) :
    val_main_v46 (F := Ideal) x0 x1 x2 x3 x4 x5 x6 x7 x8 x9
      = reluRow (matProd (val_main_v41 (F := Ideal) x0 x1 x2 x3 x4 x5 x6 x7) x8) (val_main_v43 (F := Ideal) x9) := by
  unfold val_main_v46 val_main_v45 val_main_v42 val_main_v44 val_main_call2_v0 val_main_call2_cst
  exact denseRelu_eq dot_S100000x64_S64x32_S100000x32_1_0_0_1_n_n rfl rfl lhs_main_v42_0 lhs_main_v42_1
    rhs_main_v42_0 rhs_main_v42_1 bcast_S1x32_S100000x32_0_1 bcast_S_S100000x32
    (val_main_v41 (F := Ideal) x0 x1 x2 x3 x4 x5 x6 x7) x8 (val_main_v43 (F := Ideal) x9)

/-- The result: the head on the second layer's output. -/
theorem v50_eq (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) (x5 x6 : (⟨S32x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) :
    val_main_v50 (F := Ideal) x0 x1 x2 x3 x4 x5 x6 x7 x8 x9 x10 x11
      = Cert.Spec.head (val_main_v41 (F := Ideal) x0 x1 x2 x3 x4 x5 x6 x7) x8 (val_main_v43 (F := Ideal) x9) x10 (val_main_v48 (F := Ideal) x11) := by
  unfold val_main_v50 val_main_v47 val_main_v49
  rw [v46_eq]
  exact dense_eq dot_S100000x32_S32x16_S100000x16_1_0_0_1_n_n rfl rfl lhs_main_v47_0 lhs_main_v47_1
    rhs_main_v47_0 rhs_main_v47_1 bcast_S1x16_S100000x16_0_1
    (reluRow (matProd (val_main_v41 (F := Ideal) x0 x1 x2 x3 x4 x5 x6 x7) x8) (val_main_v43 (F := Ideal) x9)) x10 (val_main_v48 (F := Ideal) x11)

/-- The reference's result is the head on the second layer on the first layer, each neighbour sum kept as the reference
    forms it. -/
theorem result_eq (x0 : (⟨S100000x16, .f32⟩ : BufTy).Contents (Elt Ideal)) (x1 : (⟨S2x1600000, .i32⟩ : BufTy).Contents (Elt Ideal)) (x2 x3 : (⟨S16x32, .f32⟩ : BufTy).Contents (Elt Ideal)) (x4 : (⟨S32, .f32⟩ : BufTy).Contents (Elt Ideal)) (x5 x6 : (⟨S32x64, .f32⟩ : BufTy).Contents (Elt Ideal)) (x7 : (⟨S64, .f32⟩ : BufTy).Contents (Elt Ideal)) (x8 : (⟨S64x32, .f32⟩ : BufTy).Contents (Elt Ideal)) (x9 : (⟨S32, .f32⟩ : BufTy).Contents (Elt Ideal)) (x10 : (⟨S32x16, .f32⟩ : BufTy).Contents (Elt Ideal)) (x11 : (⟨S16, .f32⟩ : BufTy).Contents (Elt Ideal)) :
    val_main_v50 (F := Ideal) x0 x1 x2 x3 x4 x5 x6 x7 x8 x9 x10 x11
      = Cert.Spec.head
          (Cert.Spec.layer (agg32 (h1 x0 x1 x2 x3 x4) x1) (h1 x0 x1 x2 x3 x4) x5 x6 (val_main_v36 (F := Ideal) x7))
          x8 (val_main_v43 (F := Ideal) x9) x10 (val_main_v48 (F := Ideal) x11) := by
  rw [v50_eq, v41_eq, v34_eq, v20_eq]

end Cert.ReferenceIdeal.RefValue

end
-- ==== Proof.Bridge.lean ====
/-
  The two programs compute one function of their arguments.

  Both results are  head (layer (agg32 h E) h W_root2 W_rel2 b2) fc1_w fc1_b fc2_w fc2_b  with
  h = layer (agg16 x E) x W_root1 W_rel1 b1. The neighbour sums are the same host operations on both sides (the same
  gather of source rows and the same accumulating scatter into target rows, the same wrap-around of a negative source
  row), so they are equal as they stand. The one difference left is how a bias vector becomes a row: the kernel's host
  side reshapes [M] to [1, M], the reference broadcasts [M] to [1, M] along a new leading axis; the two are one array.
-/
import proofs.«105941_j71296457114107_1_alg».proof.Proof.RefValue
import proofs.«105941_j71296457114107_1_alg».proof.Proof.KernelValue

set_option maxRecDepth 16384

noncomputable section

namespace Cert.Bridge

open Idealize.ShloMosaic Idealize.ShloMosaic.TcCoe Idealize.SL.Sem
open Cert.ReferenceIdeal.Read Cert.ReferenceIdeal.RefValue Cert.KernelIdeal.KernelValue

/-- The first layer's neighbour sums: the reference's stage is the kernel's host term. -/
theorem agg16_eq (x0 : (⟨Cert.KernelIdeal.S100000x16, .f32⟩ : BufTy).Contents (Elt Ideal)) (x1 : (⟨Cert.KernelIdeal.S2x1600000, .i32⟩ : BufTy).Contents (Elt Ideal)) :
    val_main_v13 (F := Ideal) x0 x1 = Cert.KernelIdeal.KernelValue.agg16 x0 x1 := rfl

/-- The second layer's neighbour sums likewise. -/
theorem agg32_eq (H : (⟨Cert.KernelIdeal.S100000x32, .f32⟩ : BufTy).Contents (Elt Ideal)) (x1 : (⟨Cert.KernelIdeal.S2x1600000, .i32⟩ : BufTy).Contents (Elt Ideal)) :
    Cert.ReferenceIdeal.RefValue.agg32 H x1 = Cert.KernelIdeal.KernelValue.agg32 H x1 := rfl

/-- A 32-vector broadcast to a row [1, 32] is that vector reshaped to [1, 32]. -/
theorem row32_eq (b : (⟨Cert.KernelIdeal.S32, .f32⟩ : BufTy).Contents (Elt Ideal)) :
    val_main_v15 (F := Ideal) b = shapeCast Cert.KernelIdeal.S1x32 b Cert.KernelIdeal.Facts₀.shapeCasts_S32_S1x32 :=
  (Cert.RowOps.rowCast_eq_bcast Cert.KernelIdeal.Facts₀.shapeCasts_S32_S1x32 Cert.ReferenceIdeal.Facts₀.bcast_S32_S1x32_1 b).symm

theorem row32'_eq (b : (⟨Cert.KernelIdeal.S32, .f32⟩ : BufTy).Contents (Elt Ideal)) :
    val_main_v43 (F := Ideal) b = shapeCast Cert.KernelIdeal.S1x32 b Cert.KernelIdeal.Facts₀.shapeCasts_S32_S1x32 :=
  (Cert.RowOps.rowCast_eq_bcast Cert.KernelIdeal.Facts₀.shapeCasts_S32_S1x32 Cert.ReferenceIdeal.Facts₀.bcast_S32_S1x32_1 b).symm

/-- A 64-vector likewise. -/
theorem row64_eq (b : (⟨Cert.KernelIdeal.S64, .f32⟩ : BufTy).Contents (Elt Ideal)) :
    val_main_v36 (F := Ideal) b = shapeCast Cert.KernelIdeal.S1x64 b Cert.KernelIdeal.Facts₀.shapeCasts_S64_S1x64 :=
  (Cert.RowOps.rowCast_eq_bcast Cert.KernelIdeal.Facts₀.shapeCasts_S64_S1x64 Cert.ReferenceIdeal.Facts₀.bcast_S64_S1x64_1 b).symm

/-- A 16-vector likewise. -/
theorem row16_eq (b : (⟨Cert.KernelIdeal.S16, .f32⟩ : BufTy).Contents (Elt Ideal)) :
    val_main_v48 (F := Ideal) b = shapeCast Cert.KernelIdeal.S1x16 b Cert.KernelIdeal.Facts₀.shapeCasts_S16_S1x16 :=
  (Cert.RowOps.rowCast_eq_bcast Cert.KernelIdeal.Facts₀.shapeCasts_S16_S1x16 Cert.ReferenceIdeal.Facts₀.bcast_S16_S1x16_1 b).symm

/-- The reference's result stage is the kernel's result function, of the same arguments. -/
theorem results_eq (x0 : (⟨Cert.KernelIdeal.S100000x16, .f32⟩ : BufTy).Contents (Elt Ideal)) (x1 : (⟨Cert.KernelIdeal.S2x1600000, .i32⟩ : BufTy).Contents (Elt Ideal))
    (x2 x3 : (⟨Cert.KernelIdeal.S16x32, .f32⟩ : BufTy).Contents (Elt Ideal)) (x4 : (⟨Cert.KernelIdeal.S32, .f32⟩ : BufTy).Contents (Elt Ideal))
    (x5 x6 : (⟨Cert.KernelIdeal.S32x64, .f32⟩ : BufTy).Contents (Elt Ideal)) (x7 : (⟨Cert.KernelIdeal.S64, .f32⟩ : BufTy).Contents (Elt Ideal))
    (x8 : (⟨Cert.KernelIdeal.S64x32, .f32⟩ : BufTy).Contents (Elt Ideal)) (x9 : (⟨Cert.KernelIdeal.S32, .f32⟩ : BufTy).Contents (Elt Ideal))
    (x10 : (⟨Cert.KernelIdeal.S32x16, .f32⟩ : BufTy).Contents (Elt Ideal)) (x11 : (⟨Cert.KernelIdeal.S16, .f32⟩ : BufTy).Contents (Elt Ideal)) :
    val_main_v50 (F := Ideal) x0 x1 x2 x3 x4 x5 x6 x7 x8 x9 x10 x11
      = Cert.KernelIdeal.KernelValue.result x0 x1 x2 x3 x4 x5 x6 x7 x8 x9 x10 x11 := by
  rw [Cert.ReferenceIdeal.RefValue.result_eq]
  unfold Cert.ReferenceIdeal.RefValue.h1 Cert.KernelIdeal.KernelValue.result Cert.KernelIdeal.KernelValue.hidden
  rw [agg16_eq, agg32_eq, row32_eq, row64_eq, row32'_eq, row16_eq]

end Cert.Bridge

end
-- ==== Proof.lean ====
/-
  A two-layer graph convolution with an MLP head over 100000 nodes and 1600000 edges, against its plain reference.

  Both programs compute, over the extended reals,
      out = relu(h2 · fc1_w + fc1_b) · fc2_w + fc2_b,
      h2  = relu(agg(h1) · W_rel2 + h1 · W_root2 + b2),
      h1  = relu(agg(x) · W_rel1 + x · W_root1 + b1),
  where agg(f) sums, into each node, the rows of f at the sources of the edges that end there. The kernel forms agg on
  the host and evaluates each layer's dense part in a region of ten bands of 10000 rows (the second region also the
  head); the reference evaluates everything on whole arrays and adds each layer's bias before the nodes' own product.
  The neighbour sums are the same host operations on both sides and stay as they are. The dense parts are row
  operations (matrix product with a common right factor, a common row added, a cut-off at zero): a band of rows of the
  result depends on that band of the operands only, which turns each region's ten written-back blocks into one
  whole-array function; and the two orders of a layer's three summands agree because addition of extended reals is
  commutative and associative, infinities included — so the precondition (finite inputs) is not used.

  The modules: Spec (the layer and the head as row operations), LibRowOps and LibRowBand (the row operations, on the
  host, inside a body, and on a band against the whole), Region0 and Region1 (each region's output array),
  KernelRun (the run with the result named), KernelValue (the host terms and the kernel's result function), RefValue
  (the reference's result as the same row operations), Bridge (the two functions are one).
-/
import proofs.«105941_j71296457114107_1_alg».proof.Defs
import proofs.«105941_j71296457114107_1_alg».proof.Proof.Gen.Kernel
import proofs.«105941_j71296457114107_1_alg».proof.Proof.Gen.Kernel.Frame
import proofs.«105941_j71296457114107_1_alg».proof.Proof.Gen.KernelIdeal
import proofs.«105941_j71296457114107_1_alg».proof.Proof.Gen.KernelIdeal.Frame
import proofs.«105941_j71296457114107_1_alg».proof.Proof.Gen.ReferenceIdeal
import proofs.«105941_j71296457114107_1_alg».proof.Proof.Gen.Pre_finite_inputs
import proofs.«105941_j71296457114107_1_alg».proof.Proof.Gen.ReferenceIdeal.Run
import proofs.«105941_j71296457114107_1_alg».proof.Proof.Gen.ReferenceIdeal.Read
import proofs.«105941_j71296457114107_1_alg».proof.Proof.KernelRun
import proofs.«105941_j71296457114107_1_alg».proof.Proof.Region0
import proofs.«105941_j71296457114107_1_alg».proof.Proof.Region1
import proofs.«105941_j71296457114107_1_alg».proof.Proof.KernelValue
import proofs.«105941_j71296457114107_1_alg».proof.Proof.RefValue
import proofs.«105941_j71296457114107_1_alg».proof.Proof.Bridge
import Idealize.ShloMosaic.Adequacy
import Idealize.ShloMosaic.Init

set_option maxRecDepth 16384

noncomputable section

namespace Cert.Proof

open Idealize.ShloMosaic Idealize.SL.Sem

/-- The kernel as printed runs and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference is host operations only: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both idealized programs end with the same result: the kernel's result
    function of the arguments. -/
theorem algebraic : Cert.algebraic_KernelIdeal_ReferenceIdeal := by
  intro m ρ m' ρ' _ hagree
  refine ⟨fun c => Cert.KernelIdeal.KernelValue.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.KernelValue.result_eq m ρ
          Cert.KernelIdeal.Region0.array Cert.KernelIdeal.Region1.array c), (h c).2⟩)
      (Cert.KernelIdeal.ResultRun.run_result (F := Ideal) m ρ)
  · refine (θ_run Cert.ReferenceIdeal.defs _ _).mono (fun r h c => ⟨(h c).1.trans ?_, (h c).2⟩)
      (Cert.ReferenceIdeal.Value.run (F := Ideal) m' ρ')
    obtain ⟨e0, e1, e2, e3, e4, e5, e6, e7, e8, e9, e10, e11⟩ := hagree c
    rw [Cert.ReferenceIdeal.Read.val_main_v50_eq, Cert.Bridge.results_eq, e0, e1, e2, e3, e4, e5, e6, e7, e8, e9, e10, e11]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
